-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v113) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8388608x2 : Shape := ⟨2, ![8388608, 2]⟩
abbrev S_ : Shape := ⟨0, ![]⟩

class Facts : Prop where
  bcast_S_S8388608x2 : S_.BroadcastsInDim S8388608x2 (![] : Fin 0 → Fin S8388608x2.rank)
  reducesTo_S8388608x2_S_d0_1 : S8388608x2.ReducesTo [0, 1] S_
  h_S_ : 0 < S_.numel

variable [Facts]

def fn_part1 {F : FTy → Type} [FloatOps F] (main_v13 : IVec S_ 1) (main_v16 : IVec S8388608x2 1) : IVec S_ 1 :=
  let main_c_5 : IVec S_ 1 := constantI S_ 1 1#1
  let main_v17 : IVec S_ 1 := (fun x v => Host.reduce IntOp.andi x v reducesTo_S8388608x2_S_d0_1 h_S_) main_v16 main_c_5
  let main_v18 : IVec S_ 1 := andi main_v13 main_v17
  main_v18

def fn {F : FTy → Type} [FloatOps F] (main_arg0 : FVec F S8388608x2 .f32) (main_arg1 : FVec F S8388608x2 .f32) (main_arg2 : FVec F S8388608x2 .f32) (main_arg3 : FVec F S8388608x2 .f32) : IVec S_ 1 :=
  let main_v0 : FVec F S8388608x2 .f32 := Host.absf main_arg0
  let main_cst : FVec F S_ .f32 := constant S_ .f32 0x7F800000#32
  let main_v1 : FVec F S8388608x2 .f32 := broadcastInDim S8388608x2 ![] bcast_S_S8388608x2 main_cst
  let main_v2 : IVec S8388608x2 1 := cmpf .olt main_v0 main_v1
  let main_c : IVec S_ 1 := constantI S_ 1 1#1
  let main_v3 : IVec S_ 1 := (fun x v => Host.reduce IntOp.andi x v reducesTo_S8388608x2_S_d0_1 h_S_) main_v2 main_c
  let main_v4 : FVec F S8388608x2 .f32 := Host.absf main_arg1
  let main_cst_0 : FVec F S_ .f32 := constant S_ .f32 0x7F800000#32
  let main_v5 : FVec F S8388608x2 .f32 := broadcastInDim S8388608x2 ![] bcast_S_S8388608x2 main_cst_0
  let main_v6 : IVec S8388608x2 1 := cmpf .olt main_v4 main_v5
  let main_c_1 : IVec S_ 1 := constantI S_ 1 1#1
  let main_v7 : IVec S_ 1 := (fun x v => Host.reduce IntOp.andi x v reducesTo_S8388608x2_S_d0_1 h_S_) main_v6 main_c_1
  let main_v8 : IVec S_ 1 := andi main_v3 main_v7
  let main_v9 : FVec F S8388608x2 .f32 := Host.absf main_arg2
  let main_cst_2 : FVec F S_ .f32 := constant S_ .f32 0x7F800000#32
  let main_v10 : FVec F S8388608x2 .f32 := broadcastInDim S8388608x2 ![] bcast_S_S8388608x2 main_cst_2
  let main_v11 : IVec S8388608x2 1 := cmpf .olt main_v9 main_v10
  let main_c_3 : IVec S_ 1 := constantI S_ 1 1#1
  let main_v12 : IVec S_ 1 := (fun x v => Host.reduce IntOp.andi x v reducesTo_S8388608x2_S_d0_1 h_S_) main_v11 main_c_3
  let main_v13 : IVec S_ 1 := andi main_v8 main_v12
  let main_v14 : FVec F S8388608x2 .f32 := Host.absf main_arg3
  let main_cst_4 : FVec F S_ .f32 := constant S_ .f32 0x7F800000#32
  let main_v15 : FVec F S8388608x2 .f32 := broadcastInDim S8388608x2 ![] bcast_S_S8388608x2 main_cst_4
  let main_v16 : IVec S8388608x2 1 := cmpf .olt main_v14 main_v15
  fn_part1 (F := F) main_v13 main_v16
-- ==== Kernel.lean ====
abbrev S8388608x2 : Shape := ⟨2, ![8388608, 2]⟩
abbrev S8388608x1 : Shape := ⟨2, ![8388608, 1]⟩
abbrev S8388608 : Shape := ⟨1, ![8388608]⟩
abbrev S65536x128 : Shape := ⟨2, ![65536, 128]⟩
abbrev S1024x128 : Shape := ⟨2, ![1024, 128]⟩

abbrev nBuf : Space → Nat
  | .hbm => 35
  | .vmem => 20
  | .smem => 0
  | _ => 0

abbrev bufTy : (tb : Table) → Fin (tcTables nBuf tb) → BufTy
  | .hbm, ⟨0, _⟩ => ⟨S8388608x2, .f32⟩
  | .hbm, ⟨1, _⟩ => ⟨S8388608x2, .f32⟩
  | .hbm, ⟨2, _⟩ => ⟨S8388608x2, .f32⟩
  | .hbm, ⟨3, _⟩ => ⟨S8388608x2, .f32⟩
  | .hbm, ⟨4, _⟩ => ⟨S8388608x1, .f32⟩
  | .hbm, ⟨5, _⟩ => ⟨S8388608, .f32⟩
  | .hbm, ⟨6, _⟩ => ⟨S65536x128, .f32⟩
  | .hbm, ⟨7, _⟩ => ⟨S8388608x1, .f32⟩
  | .hbm, ⟨8, _⟩ => ⟨S8388608, .f32⟩
  | .hbm, ⟨9, _⟩ => ⟨S65536x128, .f32⟩
  | .hbm, ⟨10, _⟩ => ⟨S8388608x1, .f32⟩
  | .hbm, ⟨11, _⟩ => ⟨S8388608, .f32⟩
  | .hbm, ⟨12, _⟩ => ⟨S65536x128, .f32⟩
  | .hbm, ⟨13, _⟩ => ⟨S8388608x1, .f32⟩
  | .hbm, ⟨14, _⟩ => ⟨S8388608, .f32⟩
  | .hbm, ⟨15, _⟩ => ⟨S65536x128, .f32⟩
  | .hbm, ⟨16, _⟩ => ⟨S8388608x1, .f32⟩
  | .hbm, ⟨17, _⟩ => ⟨S8388608, .f32⟩
  | .hbm, ⟨18, _⟩ => ⟨S65536x128, .f32⟩
  | .hbm, ⟨19, _⟩ => ⟨S8388608x1, .f32⟩
  | .hbm, ⟨20, _⟩ => ⟨S8388608, .f32⟩
  | .hbm, ⟨21, _⟩ => ⟨S65536x128, .f32⟩
  | .hbm, ⟨22, _⟩ => ⟨S8388608x1, .f32⟩
  | .hbm, ⟨23, _⟩ => ⟨S8388608, .f32⟩
  | .hbm, ⟨24, _⟩ => ⟨S65536x128, .f32⟩
  | .hbm, ⟨25, _⟩ => ⟨S8388608x1, .f32⟩
  | .hbm, ⟨26, _⟩ => ⟨S8388608, .f32⟩
  | .hbm, ⟨27, _⟩ => ⟨S65536x128, .f32⟩
  | .hbm, ⟨28, _⟩ => ⟨S65536x128, .f32⟩
  | .hbm, ⟨29, _⟩ => ⟨S65536x128, .f32⟩
  | .hbm, ⟨30, _⟩ => ⟨S8388608, .f32⟩
  | .hbm, ⟨31, _⟩ => ⟨S8388608, .f32⟩
  | .hbm, ⟨32, _⟩ => ⟨S8388608x1, .f32⟩
  | .hbm, ⟨33, _⟩ => ⟨S8388608x1, .f32⟩
  | .hbm, ⟨34, _⟩ => ⟨S8388608x2, .f32⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | .local _ .vmem, ⟨14, _⟩ => ⟨S1024x128, .f32⟩
  | .local _ .vmem, ⟨15, _⟩ => ⟨S1024x128, .f32⟩
  | .local _ .vmem, ⟨16, _⟩ => ⟨S1024x128, .f32⟩
  | .local _ .vmem, ⟨17, _⟩ => ⟨S1024x128, .f32⟩
  | .local _ .vmem, ⟨18, _⟩ => ⟨S1024x128, .f32⟩
  | .local _ .vmem, ⟨19, _⟩ => ⟨S1024x128, .f32⟩
  | _, _ => ⟨S8388608x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24_0 : Ref sig .tc := ⟨.hbm, 28, rfl⟩
abbrev main_v24_1 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  slices_S8388608x2_S8388608x1_0_0 : S8388608x2.Slices ![0, 0] S8388608x1
  shapeCasts_S8388608x1_S8388608 : S8388608x1.ShapeCasts S8388608
  shapeCasts_S8388608_S65536x128 : S8388608.ShapeCasts S65536x128
  slices_S8388608x2_S8388608x1_0_1 : S8388608x2.Slices ![0, 1] S8388608x1
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  shapeCasts_S65536x128_S8388608 : S65536x128.ShapeCasts S8388608
  bcast_S8388608_S8388608x1_0 : S8388608.BroadcastsInDim S8388608x1 (![0] : Fin 1 → Fin S8388608x1.rank)
  concatenates_S8388608x1_S8388608x1_S8388608x2_d1 : Shape.Concatenates [S8388608x1, S8388608x1] S8388608x2 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S65536x128.size a
  hwx0_0 : ∀ i : grid0.Coords, EltTy.bits .f32 = 32 ∨ (Rect.block (s := S65536x128) S1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S65536x128.size a
  hwx0_1 : ∀ i : grid0.Coords, EltTy.bits .f32 = 32 ∨ (Rect.block (s := S65536x128) S1024x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x128.size a ≤ S65536x128.size a
  hwx0_2 : ∀ i : grid0.Coords, EltTy.bits .f32 = 32 ∨ (Rect.block (s := S65536x128) S1024x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x128.size a ≤ S65536x128.size a
  hwx0_3 : ∀ i : grid0.Coords, EltTy.bits .f32 = 32 ∨ (Rect.block (s := S65536x128) S1024x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x128.size a ≤ S65536x128.size a
  hwx0_4 : ∀ i : grid0.Coords, EltTy.bits .f32 = 32 ∨ (Rect.block (s := S65536x128) S1024x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x128.size a ≤ S65536x128.size a
  hwx0_5 : ∀ i : grid0.Coords, EltTy.bits .f32 = 32 ∨ (Rect.block (s := S65536x128) S1024x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x128.size a ≤ S65536x128.size a
  hwx0_6 : ∀ i : grid0.Coords, EltTy.bits .f32 = 32 ∨ (Rect.block (s := S65536x128) S1024x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x128.size a ≤ S65536x128.size a
  hwx0_7 : ∀ i : grid0.Coords, EltTy.bits .f32 = 32 ∨ (Rect.block (s := S65536x128) S1024x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1024x128.size a ≤ S65536x128.size a
  hwx0_8 : ∀ i : grid0.Coords, EltTy.bits .f32 = 32 ∨ (Rect.block (s := S65536x128) S1024x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1024x128.size a ≤ S65536x128.size a
  hwx0_9 : ∀ i : grid0.Coords, EltTy.bits .f32 = 32 ∨ (Rect.block (s := S65536x128) S1024x128.size (cc0_transform_9 i) (hinb0_9 i)).WholeWords (EltTy.packing .f32)

variable [Facts₀]

abbrev win0_0 : Pipeline.Window sig grid0 :=
  Pipeline.Window.ofSpec (Memref.whole main_v2) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1024x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v11) S1024x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v14) S1024x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v17) S1024x128.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v20) S1024x128.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v23) S1024x128.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v24_0) S1024x128.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v24_1) S1024x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S8388608x2 : Shape := ⟨2, ![8388608, 2]⟩
abbrev S8388608x1 : Shape := ⟨2, ![8388608, 1]⟩
abbrev S8388608 : Shape := ⟨1, ![8388608]⟩
abbrev S_ : Shape := ⟨0, ![]⟩

abbrev nBuf : Space → Nat
  | .hbm => 151
  | .vmem => 0
  | .smem => 0
  | _ => 0

abbrev hbmTy0_0 (i : Nat) : BufTy := match i % 128 with
  | 0 => ⟨S8388608x2, .f32⟩
  | 1 => ⟨S8388608x2, .f32⟩
  | 2 => ⟨S8388608x2, .f32⟩
  | 3 => ⟨S8388608x2, .f32⟩
  | 4 => ⟨S8388608x1, .f32⟩
  | 5 => ⟨S8388608, .f32⟩
  | 6 => ⟨S8388608x1, .f32⟩
  | 7 => ⟨S8388608, .f32⟩
  | 8 => ⟨S_, .f32⟩
  | 9 => ⟨S8388608, .f32⟩
  | 10 => ⟨S8388608, .i1⟩
  | 11 => ⟨S8388608, .f32⟩
  | 12 => ⟨S_, .f32⟩
  | 13 => ⟨S8388608, .f32⟩
  | 14 => ⟨S8388608, .f32⟩
  | 15 => ⟨S8388608, .f32⟩
  | 16 => ⟨S8388608, .f32⟩
  | 17 => ⟨S8388608, .f32⟩
  | 18 => ⟨S_, .f32⟩
  | 19 => ⟨S8388608, .f32⟩
  | 20 => ⟨S8388608, .f32⟩
  | 21 => ⟨S_, .f32⟩
  | 22 => ⟨S8388608, .f32⟩
  | 23 => ⟨S8388608, .f32⟩
  | 24 => ⟨S_, .f32⟩
  | 25 => ⟨S8388608, .f32⟩
  | 26 => ⟨S8388608, .f32⟩
  | 27 => ⟨S8388608, .f32⟩
  | 28 => ⟨S_, .f32⟩
  | 29 => ⟨S8388608, .f32⟩
  | 30 => ⟨S8388608, .i1⟩
  | 31 => ⟨S8388608, .f32⟩
  | 32 => ⟨S_, .f32⟩
  | 33 => ⟨S8388608, .f32⟩
  | 34 => ⟨S8388608, .f32⟩
  | 35 => ⟨S8388608, .f32⟩
  | 36 => ⟨S8388608, .f32⟩
  | 37 => ⟨S8388608, .f32⟩
  | 38 => ⟨S_, .f32⟩
  | 39 => ⟨S8388608, .f32⟩
  | 40 => ⟨S8388608, .f32⟩
  | 41 => ⟨S_, .f32⟩
  | 42 => ⟨S8388608, .f32⟩
  | 43 => ⟨S8388608, .f32⟩
  | 44 => ⟨S_, .f32⟩
  | 45 => ⟨S8388608, .f32⟩
  | 46 => ⟨S8388608, .f32⟩
  | 47 => ⟨S8388608, .f32⟩
  | 48 => ⟨S_, .f32⟩
  | 49 => ⟨S8388608, .f32⟩
  | 50 => ⟨S8388608, .i1⟩
  | 51 => ⟨S_, .f32⟩
  | 52 => ⟨S8388608, .f32⟩
  | 53 => ⟨S8388608, .i1⟩
  | 54 => ⟨S8388608, .i1⟩
  | 55 => ⟨S8388608, .i1⟩
  | 56 => ⟨S8388608, .f32⟩
  | 57 => ⟨S8388608, .f32⟩
  | 58 => ⟨S8388608, .f32⟩
  | 59 => ⟨S_, .f32⟩
  | 60 => ⟨S_, .f32⟩
  | 61 => ⟨S8388608, .f32⟩
  | 62 => ⟨S8388608, .f32⟩
  | 63 => ⟨S8388608, .i1⟩
  | 64 => ⟨S_, .f32⟩
  | 65 => ⟨S_, .f32⟩
  | 66 => ⟨S8388608, .f32⟩
  | 67 => ⟨S8388608, .f32⟩
  | 68 => ⟨S_, .f32⟩
  | 69 => ⟨S8388608, .f32⟩
  | 70 => ⟨S8388608, .i1⟩
  | 71 => ⟨S8388608, .f32⟩
  | 72 => ⟨S8388608, .f32⟩
  | 73 => ⟨S_, .f32⟩
  | 74 => ⟨S_, .f32⟩
  | 75 => ⟨S8388608, .f32⟩
  | 76 => ⟨S8388608, .f32⟩
  | 77 => ⟨S8388608, .f32⟩
  | 78 => ⟨S8388608, .f32⟩
  | 79 => ⟨S8388608, .f32⟩
  | 80 => ⟨S8388608, .f32⟩
  | 81 => ⟨S_, .f32⟩
  | 82 => ⟨S_, .f32⟩
  | 83 => ⟨S8388608, .f32⟩
  | 84 => ⟨S8388608, .f32⟩
  | 85 => ⟨S8388608, .f32⟩
  | 86 => ⟨S8388608x1, .f32⟩
  | 87 => ⟨S8388608, .f32⟩
  | 88 => ⟨S8388608x1, .f32⟩
  | 89 => ⟨S8388608, .f32⟩
  | 90 => ⟨S8388608x1, .f32⟩
  | 91 => ⟨S8388608, .f32⟩
  | 92 => ⟨S8388608x1, .f32⟩
  | 93 => ⟨S8388608, .f32⟩
  | 94 => ⟨S_, .f32⟩
  | 95 => ⟨S8388608, .f32⟩
  | 96 => ⟨S8388608, .f32⟩
  | 97 => ⟨S_, .f32⟩
  | 98 => ⟨S8388608, .f32⟩
  | 99 => ⟨S8388608, .f32⟩
  | 100 => ⟨S_, .f32⟩
  | 101 => ⟨S8388608, .f32⟩
  | 102 => ⟨S8388608, .f32⟩
  | 103 => ⟨S_, .f32⟩
  | 104 => ⟨S8388608, .f32⟩
  | 105 => ⟨S8388608, .f32⟩
  | 106 => ⟨S8388608, .f32⟩
  | 107 => ⟨S8388608, .f32⟩
  | 108 => ⟨S8388608, .f32⟩
  | 109 => ⟨S8388608, .f32⟩
  | 110 => ⟨S8388608, .f32⟩
  | 111 => ⟨S8388608, .f32⟩
  | 112 => ⟨S8388608, .f32⟩
  | 113 => ⟨S8388608, .f32⟩
  | 114 => ⟨S8388608, .f32⟩
  | 115 => ⟨S8388608, .f32⟩
  | 116 => ⟨S8388608, .f32⟩
  | 117 => ⟨S8388608, .f32⟩
  | 118 => ⟨S8388608, .f32⟩
  | 119 => ⟨S8388608, .f32⟩
  | 120 => ⟨S8388608x1, .f32⟩
  | 121 => ⟨S8388608, .f32⟩
  | 122 => ⟨S8388608x1, .f32⟩
  | 123 => ⟨S8388608, .f32⟩
  | 124 => ⟨S_, .f32⟩
  | 125 => ⟨S8388608, .f32⟩
  | 126 => ⟨S8388608, .f32⟩
  | 127 => ⟨S8388608, .f32⟩
  | _ => ⟨S8388608x2, .f32⟩

abbrev hbmTy0_1 (i : Nat) : BufTy := match i % 128 with
  | 0 => ⟨S_, .f32⟩
  | 1 => ⟨S8388608, .f32⟩
  | 2 => ⟨S8388608, .f32⟩
  | 3 => ⟨S8388608, .f32⟩
  | 4 => ⟨S8388608, .f32⟩
  | 5 => ⟨S8388608, .f32⟩
  | 6 => ⟨S_, .f32⟩
  | 7 => ⟨S8388608, .f32⟩
  | 8 => ⟨S8388608, .f32⟩
  | 9 => ⟨S8388608, .f32⟩
  | 10 => ⟨S_, .f32⟩
  | 11 => ⟨S8388608, .f32⟩
  | 12 => ⟨S8388608, .f32⟩
  | 13 => ⟨S8388608, .f32⟩
  | 14 => ⟨S8388608, .f32⟩
  | 15 => ⟨S8388608, .f32⟩
  | 16 => ⟨S8388608, .i1⟩
  | 17 => ⟨S8388608, .f32⟩
  | 18 => ⟨S8388608, .i1⟩
  | 19 => ⟨S8388608, .f32⟩
  | 20 => ⟨S8388608x1, .f32⟩
  | 21 => ⟨S8388608x1, .f32⟩
  | 22 => ⟨S8388608x2, .f32⟩
  | _ => ⟨S8388608x2, .f32⟩

abbrev hbmTy (i : Nat) : BufTy := match i / 128 with
  | 0 => hbmTy0_0 i
  | 1 => hbmTy0_1 i
  | _ => ⟨S8388608x2, .f32⟩

abbrev bufTy : (tb : Table) → Fin (tcTables nBuf tb) → BufTy
  | .hbm, ⟨i, _⟩ => hbmTy i
  | _, _ => ⟨S8388608x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_5 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_6 : Ref sig .tc := ⟨.hbm, 38, rfl⟩
abbrev main_v27 : Ref sig .tc := ⟨.hbm, 39, rfl⟩
abbrev main_v28 : Ref sig .tc := ⟨.hbm, 40, rfl⟩
abbrev main_cst_7 : Ref sig .tc := ⟨.hbm, 41, rfl⟩
abbrev main_v29 : Ref sig .tc := ⟨.hbm, 42, rfl⟩
abbrev main_v30 : Ref sig .tc := ⟨.hbm, 43, rfl⟩
abbrev main_cst_8 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_9 : Ref sig .tc := ⟨.hbm, 48, rfl⟩
abbrev main_v34 : Ref sig .tc := ⟨.hbm, 49, rfl⟩
abbrev main_v35 : Ref sig .tc := ⟨.hbm, 50, rfl⟩
abbrev main_cst_10 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_11 : Ref sig .tc := ⟨.hbm, 59, rfl⟩
abbrev main_call2_v0 : Ref sig .tc := ⟨.hbm, 60, rfl⟩
abbrev main_call2_v1 : Ref sig .tc := ⟨.hbm, 61, rfl⟩
abbrev main_v43 : Ref sig .tc := ⟨.hbm, 62, rfl⟩
abbrev main_v44 : Ref sig .tc := ⟨.hbm, 63, rfl⟩
abbrev main_cst_12 : Ref sig .tc := ⟨.hbm, 64, rfl⟩
abbrev main_call3_v0 : Ref sig .tc := ⟨.hbm, 65, rfl⟩
abbrev main_call3_v1 : Ref sig .tc := ⟨.hbm, 66, rfl⟩
abbrev main_v45 : Ref sig .tc := ⟨.hbm, 67, rfl⟩
abbrev main_cst_13 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_cst_14 : Ref sig .tc := ⟨.hbm, 73, rfl⟩
abbrev main_call6_v0 : Ref sig .tc := ⟨.hbm, 74, rfl⟩
abbrev main_call6_v1 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_cst_15 : Ref sig .tc := ⟨.hbm, 81, rfl⟩
abbrev main_call7_v0 : Ref sig .tc := ⟨.hbm, 82, rfl⟩
abbrev main_call7_v1 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_cst_16 : Ref sig .tc := ⟨.hbm, 94, rfl⟩
abbrev main_v65 : Ref sig .tc := ⟨.hbm, 95, rfl⟩
abbrev main_v66 : Ref sig .tc := ⟨.hbm, 96, rfl⟩
abbrev main_cst_17 : Ref sig .tc := ⟨.hbm, 97, rfl⟩
abbrev main_v67 : Ref sig .tc := ⟨.hbm, 98, rfl⟩
abbrev main_v68 : Ref sig .tc := ⟨.hbm, 99, rfl⟩
abbrev main_cst_18 : Ref sig .tc := ⟨.hbm, 100, rfl⟩
abbrev main_v69 : Ref sig .tc := ⟨.hbm, 101, rfl⟩
abbrev main_v70 : Ref sig .tc := ⟨.hbm, 102, rfl⟩
abbrev main_cst_19 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_cst_20 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_cst_21 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_cst_22 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_cst_23 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩

abbrev nD : Nat := 1
abbrev τ : Topo := Topo.v7x

variable {F : FTy → Type} [FloatOps F]

class Facts₀ : Prop where
  slices_S8388608x2_S8388608x1_0_0 : S8388608x2.Slices ![0, 0] S8388608x1
  shapeCasts_S8388608x1_S8388608 : S8388608x1.ShapeCasts S8388608
  slices_S8388608x2_S8388608x1_0_1 : S8388608x2.Slices ![0, 1] S8388608x1
  bcast_S_S8388608 : S_.BroadcastsInDim S8388608 (![] : Fin 0 → Fin S8388608.rank)
  bcast_S8388608_S8388608x1_0 : S8388608.BroadcastsInDim S8388608x1 (![0] : Fin 1 → Fin S8388608x1.rank)
  concatenates_S8388608x1_S8388608x1_S8388608x2_d1 : Shape.Concatenates [S8388608x1, S8388608x1] S8388608x2 1

variable [Facts₀]

class Facts : Prop extends Facts₀ where

variable [Facts]
-- ==== Proof.BoundSpec.lean ====
/-
  Interval bounds of one activation layer, tightened by one step of back-substitution: the mathematics both
  programs compute, on the extended reals, for one neuron.

  The activation is  a(x) = x² − 1/2  for x ≥ 0  and  a(x) = σ(−x) − 1  for x < 0,  σ(y) = 1 / (1 + e^{−y}).
  For an input interval [l, u] the layer keeps the chord slope k = (a(u) − a(l)) / (u − l), splits it into a lower
  slope s₀ (kept when the interval lies in x ≤ 0) and an upper slope s₁ (kept when it lies in x ≥ 0 or straddles 0),
  takes a(l), a(u) in increasing order as first bounds (−1/2 below when the interval straddles 0), and the offsets
  of the two lines. One step back through the previous layer's slopes (p), offsets (q) and bounds (b) replaces each
  slope by its positive and negative parts against the matching end, and the result is kept only where it is tighter.
  Every definition below is one such quantity as a function of the neuron's eight numbers; nothing here mentions an
  array or a program.
-/
import Idealize.ShloMosaic.PureOps.Ideal
import Idealize.ShloMosaic.PureOps.Ideal.Laws

noncomputable section

namespace Cert.BoundSpec

open Idealize.ShloMosaic

/-- The four constants, as the extended reals their single-precision words denote: 0, 1/2, 1 and −1/2. -/
abbrev zero : Ideal .f32 := FloatOps.ofBits .f32 0x00000000#32
abbrev half : Ideal .f32 := FloatOps.ofBits .f32 0x3F000000#32
abbrev one : Ideal .f32 := FloatOps.ofBits .f32 0x3F800000#32
abbrev negHalf : Ideal .f32 := FloatOps.ofBits .f32 0xBF000000#32

/-- The activation a(x): x² − 1/2 where x ≥ 0, σ(0 − x) − 1 elsewhere, σ the logistic function. -/
def act (x : Ideal .f32) : Ideal .f32 :=
  Scalar.select (FloatOps.cmpf .oge x zero) (FloatOps.subf (FloatOps.mulf x x) half)
    (FloatOps.subf (FloatOps.logistic (FloatOps.subf zero x)) one)

/-- The same activation with the logistic function written out: σ(−x) as 1 / (1 + e^{−(−x)}). -/
def actSpelled (x : Ideal .f32) : Ideal .f32 :=
  Scalar.select (FloatOps.cmpf .oge x zero) (FloatOps.subf (FloatOps.mulf x x) half)
    (FloatOps.subf (FloatOps.hostDivf one (FloatOps.addf one (FloatOps.hostUnary .exp (FloatOps.hostNegf (FloatOps.hostNegf x))))) one)

/-- The word 0x3F800000 denotes 1. -/
theorem one_eq : (one : Ideal .f32) = (1 : EReal) := by
  simp [Ideal.ofBits, Ideal.ieee, -EReal.coe_mul]
  norm_num

/-- The word 0x00000000 denotes 0. -/
theorem zero_eq : (zero : Ideal .f32) = (0 : EReal) := Ideal.ofBits_zero_f32

/-- σ(0 − x) = 1 / (1 + e^{−(−x)}) on every extended real: σ(y) is by definition 1 / (1 + e^{−y}), and 0 − x = −x. -/
theorem logistic_zero_sub (x : EReal) :
    Ideal.logistic ((0 : EReal) - x) = Ideal.div 1 (1 + Ideal.exp (-(-x))) := by
  rw [Ideal.logistic, zero_sub]

/-- The two spellings of the activation are one function. -/
theorem actSpelled_eq (x : Ideal .f32) : actSpelled x = act x := by
  unfold actSpelled act
  congr 2
  show Ideal.div one (one + Ideal.exp (-(-x))) = Ideal.logistic (zero - x)
  rw [one_eq, zero_eq, logistic_zero_sub]

/-- The interval lies in x ≤ 0 (its upper end is ≤ 0). -/
def nonpos (u : Ideal .f32) : BitVec 1 := FloatOps.cmpf .ole u zero
/-- The interval lies in x ≥ 0 (its lower end is ≥ 0). -/
def nonneg (l : Ideal .f32) : BitVec 1 := FloatOps.cmpf .oge l zero
/-- The interval straddles 0: neither of the two, the disjunction's bit flipped by exclusive-or with 1. -/
def straddles (l u : Ideal .f32) : BitVec 1 := IntOp.xori (IntOp.ori (nonpos u) (nonneg l)) 1#1
/-- The same, the bit flipped by complement. -/
def straddlesCompl (l u : Ideal .f32) : BitVec 1 := ~~~(IntOp.ori (nonpos u) (nonneg l))

/-- On one bit, complement is exclusive-or with 1. -/
theorem straddlesCompl_eq (l u : Ideal .f32) : straddlesCompl l u = straddles l u := by
  unfold straddlesCompl straddles
  generalize IntOp.ori (nonpos u) (nonneg l) = b
  revert b
  decide

/-- The chord slope k = (a(u) − a(l)) / (u − l). -/
def slope (l u : Ideal .f32) : Ideal .f32 :=
  FloatOps.divf (FloatOps.subf (act u) (act l)) (FloatOps.subf u l)
/-- The lower slope s₀: k when the interval lies in x ≤ 0, else 0. -/
def slopeLo (l u : Ideal .f32) : Ideal .f32 := Scalar.select (nonpos u) (slope l u) zero
/-- The upper slope s₁: k when the interval lies in x ≥ 0 or straddles 0, else 0. -/
def slopeHi (l u : Ideal .f32) : Ideal .f32 :=
  Scalar.select (IntOp.ori (nonneg l) (straddles l u)) (slope l u) zero

/-- First upper bound: the larger of a(l), a(u) — a(l) when the chord decreases (k < z, z = 0), else a(u). -/
def firstHi (sl su k z : Ideal .f32) : Ideal .f32 := Scalar.select (FloatOps.cmpf .olt k z) sl su
/-- First lower bound: −1/2 when the interval straddles 0 (bit c), else the smaller of a(l), a(u). -/
def firstLo (sl su : Ideal .f32) (c : BitVec 1) (k z : Ideal .f32) : Ideal .f32 :=
  Scalar.select c negHalf (Scalar.select (FloatOps.cmpf .olt k z) su sl)

/-- Positive and negative parts of a slope. -/
def posPart (s : Ideal .f32) : Ideal .f32 := FloatOps.maximumf s zero
def negPart (s : Ideal .f32) : Ideal .f32 := FloatOps.minimumf s zero

/-- Upper line's slope through the previous layer: s₁⁺·p_u + s₁⁻·p_l. -/
def upperSlope (s1 pl pu : Ideal .f32) : Ideal .f32 :=
  FloatOps.addf (FloatOps.mulf (posPart s1) pu) (FloatOps.mulf (negPart s1) pl)
/-- Upper line's offset: s₁⁺·q_u + h₁ + s₁⁻·q_l, with h₁ = a(l) on x ≤ 0 (bit n) and a(u) − s₁·u elsewhere. -/
def upperOffset (u sl su : Ideal .f32) (n : BitVec 1) (s1 ql qu : Ideal .f32) : Ideal .f32 :=
  FloatOps.addf (FloatOps.addf (FloatOps.mulf (posPart s1) qu)
      (Scalar.select n sl (FloatOps.subf su (FloatOps.mulf s1 u))))
    (FloatOps.mulf (negPart s1) ql)
/-- Lower line's slope through the previous layer: s₀⁺·p_l + s₀⁻·p_u. -/
def lowerSlope (s0 pl pu : Ideal .f32) : Ideal .f32 :=
  FloatOps.addf (FloatOps.mulf (posPart s0) pl) (FloatOps.mulf (negPart s0) pu)
/-- Lower line's offset: s₀⁻·q_l + h₀ + s₀⁺·q_u, with h₀ = −1/2 when straddling (bit c) and a(l) − s₀·l elsewhere. -/
def lowerOffset (l sl : Ideal .f32) (c : BitVec 1) (s0 ql qu : Ideal .f32) : Ideal .f32 :=
  FloatOps.addf (FloatOps.addf (FloatOps.mulf (negPart s0) ql)
      (Scalar.select c negHalf (FloatOps.subf sl (FloatOps.mulf s0 l))))
    (FloatOps.mulf (posPart s0) qu)

/-- The back-substituted lower bound M⁺·b_l + M⁻·b_u + V replaces the first one where it is larger. -/
def tightenLo (lo0 M V bl bu : Ideal .f32) : Ideal .f32 :=
  Scalar.select
    (FloatOps.cmpf .ogt (FloatOps.addf (FloatOps.addf (FloatOps.mulf (posPart M) bl) (FloatOps.mulf (negPart M) bu)) V) lo0)
    (FloatOps.addf (FloatOps.addf (FloatOps.mulf (posPart M) bl) (FloatOps.mulf (negPart M) bu)) V) lo0
/-- The back-substituted upper bound M⁺·b_u + M⁻·b_l + V replaces the first one where it is smaller. -/
def tightenHi (hi0 M V bl bu : Ideal .f32) : Ideal .f32 :=
  Scalar.select
    (FloatOps.cmpf .olt (FloatOps.addf (FloatOps.addf (FloatOps.mulf (posPart M) bu) (FloatOps.mulf (negPart M) bl)) V) hi0)
    (FloatOps.addf (FloatOps.addf (FloatOps.mulf (posPart M) bu) (FloatOps.mulf (negPart M) bl)) V) hi0

/-- THE LOWER BOUND of one neuron from its eight numbers: the ends l, u of its input interval, the previous
    layer's slopes p_l, p_u, offsets q_l, q_u and bounds b_l, b_u. -/
def lower (l u pl pu ql qu bl bu : Ideal .f32) : Ideal .f32 :=
  tightenLo (firstLo (act l) (act u) (straddles l u) (slope l u) zero)
    (lowerSlope (slopeLo l u) pl pu) (lowerOffset l (act l) (straddles l u) (slopeLo l u) ql qu) bl bu

/-- THE UPPER BOUND of one neuron from the same eight numbers. -/
def upper (l u pl pu ql qu bl bu : Ideal .f32) : Ideal .f32 :=
  tightenHi (firstHi (act l) (act u) (slope l u) zero)
    (upperSlope (slopeHi l u) pl pu) (upperOffset u (act l) (act u) (nonpos u) (slopeHi l u) ql qu) bl bu

/-- The bounds of a whole layer laid out over any index set: neuron by neuron. -/
def lowerOver {ι : Type} (l u pl pu ql qu bl bu : ι → Ideal .f32) : ι → Ideal .f32 :=
  fun i => lower (l i) (u i) (pl i) (pu i) (ql i) (qu i) (bl i) (bu i)
def upperOver {ι : Type} (l u pl pu ql qu bl bu : ι → Ideal .f32) : ι → Ideal .f32 :=
  fun i => upper (l i) (u i) (pl i) (pu i) (ql i) (qu i) (bl i) (bu i)

/-! ## The whole layer: arrays of two numbers per neuron

Each argument array holds two numbers per neuron (its two columns); the result holds the lower and the upper bound of
every neuron the same way. -/

/-- One number per neuron; one number per neuron laid out as a column; two numbers per neuron. -/
abbrev Neurons : Shape := ⟨1, ![8388608]⟩
abbrev NeuronColumn : Shape := ⟨2, ![8388608, 1]⟩
abbrev NeuronPairs : Shape := ⟨2, ![8388608, 2]⟩

theorem firstColumn_fits : NeuronPairs.Slices ![0, 0] NeuronColumn := by decide
theorem secondColumn_fits : NeuronPairs.Slices ![0, 1] NeuronColumn := by decide
theorem column_flattens : NeuronColumn.ShapeCasts Neurons := by decide
theorem vector_stands : Neurons.BroadcastsInDim NeuronColumn (![0] : Fin 1 → Fin NeuronColumn.rank) := by decide
theorem columns_join : Shape.Concatenates [NeuronColumn, NeuronColumn] NeuronPairs 1 := by decide

/-- The first number of every neuron, as a vector over the neurons. -/
def firstOf (a : NeuronPairs.Idx → Ideal .f32) : Neurons.Idx → Ideal .f32 :=
  shapeCast Neurons (extractStridedSlice NeuronColumn ![0, 0] a firstColumn_fits) column_flattens
/-- The second number of every neuron. -/
def secondOf (a : NeuronPairs.Idx → Ideal .f32) : Neurons.Idx → Ideal .f32 :=
  shapeCast Neurons (extractStridedSlice NeuronColumn ![0, 1] a secondColumn_fits) column_flattens

/-- Two vectors over the neurons side by side: the array of their pairs. -/
def paired (x y : Neurons.Idx → Ideal .f32) : NeuronPairs.Idx → Ideal .f32 :=
  concatenate NeuronPairs 1 [⟨NeuronColumn, broadcastInDim NeuronColumn ![0] vector_stands x⟩,
    ⟨NeuronColumn, broadcastInDim NeuronColumn ![0] vector_stands y⟩] columns_join

/-- THE RESULT: for the interval ends, previous slopes, previous offsets and previous bounds of every neuron (two
    numbers each), the array of every neuron's lower and upper bound. -/
def bounds (ends slopes offsets prior : NeuronPairs.Idx → Ideal .f32) : NeuronPairs.Idx → Ideal .f32 :=
  paired
    (lowerOver (firstOf ends) (secondOf ends) (firstOf slopes) (secondOf slopes) (firstOf offsets) (secondOf offsets)
      (firstOf prior) (secondOf prior))
    (upperOver (firstOf ends) (secondOf ends) (firstOf slopes) (secondOf slopes) (firstOf offsets) (secondOf offsets)
      (firstOf prior) (secondOf prior))

/-- Relabelling the neurons (a reshape) commutes with taking bounds neuron by neuron. -/
theorem shapeCast_lowerOver {s t : Shape} (h : s.ShapeCasts t) (l u pl pu ql qu bl bu : s.Idx → Ideal .f32) :
    shapeCast t (lowerOver l u pl pu ql qu bl bu) h
      = lowerOver (shapeCast t l h) (shapeCast t u h) (shapeCast t pl h) (shapeCast t pu h) (shapeCast t ql h)
          (shapeCast t qu h) (shapeCast t bl h) (shapeCast t bu h) := rfl
theorem shapeCast_upperOver {s t : Shape} (h : s.ShapeCasts t) (l u pl pu ql qu bl bu : s.Idx → Ideal .f32) :
    shapeCast t (upperOver l u pl pu ql qu bl bu) h
      = upperOver (shapeCast t l h) (shapeCast t u h) (shapeCast t pl h) (shapeCast t pu h) (shapeCast t ql h)
          (shapeCast t qu h) (shapeCast t bl h) (shapeCast t bu h) := rfl

end Cert.BoundSpec

end
-- ==== Proof.KernelBlock.lean ====
/-
  One grid point of the kernel, read at an index. The body loads the point's eight input blocks (the interval ends
  l, u; the previous layer's slopes p_l, p_u, offsets q_l, q_u and bounds b_l, b_u), computes with pointwise vector
  operations only, and stores two blocks. Each intermediate vector of the body, read at a position j of the block, is
  the specification's matching scalar quantity of the eight numbers at j; the two stored blocks are therefore the
  neuron-by-neuron lower and upper bounds of the loaded blocks. The only non-pointwise steps are reshapes of a block
  to its own shape, which change nothing.
-/
import proofs.«128677_j62002147885333_1_alg».proof.Proof.Gen.KernelIdeal.Frame
import proofs.«128677_j62002147885333_1_alg».proof.Proof.BoundSpec
import Idealize.ShloMosaic.Lib.Pipeline.Value

noncomputable section

namespace Cert.KernelIdeal.Block

open Idealize.ShloMosaic Idealize.ShloMosaic.Pipeline Cert.KernelIdeal Cert.KernelIdeal.Gen Cert.BoundSpec

/-- A block: one extended real per position of a 1024 × 128 tile. -/
abbrev Blk := S1024x128.Idx → Ideal .f32

/-! ## Reshapes of a block to its own shape are the identity -/

theorem same_l (v : Blk) : k0_pay4 (F := Ideal) v = v := shapeCast_self _ _
theorem same_u (v : Blk) : k0_pay5 (F := Ideal) v = v := shapeCast_self _ _
theorem same_pl (v : Blk) : k0_pay18 (F := Ideal) v = v := shapeCast_self _ _
theorem same_pu (v : Blk) : k0_pay19 (F := Ideal) v = v := shapeCast_self _ _
theorem same_ql (v : Blk) : k0_pay20 (F := Ideal) v = v := shapeCast_self _ _
theorem same_qu (v : Blk) : k0_pay21 (F := Ideal) v = v := shapeCast_self _ _
theorem same_bl (v : Blk) : k0_pay30 (F := Ideal) v = v := shapeCast_self _ _
theorem same_bu (v : Blk) : k0_pay1 (F := Ideal) v = v := shapeCast_self _ _

/-! ## The interval's own quantities, position by position -/

/-- a(l) and a(u). -/
theorem act_l (v : Blk) (j : S1024x128.Idx) : k0_pay6 (F := Ideal) v j = act (v j) := by
  unfold k0_pay6; rw [same_l]; rfl
theorem act_u (v : Blk) (j : S1024x128.Idx) : k0_pay7 (F := Ideal) v j = act (v j) := by
  unfold k0_pay7; rw [same_u]; rfl

/-- The two sign tests and the straddling bit. -/
theorem nonpos_u (v : Blk) (j : S1024x128.Idx) : k0_pay8 (F := Ideal) v j = nonpos (v j) := by
  unfold k0_pay8; rw [same_u]; rfl
theorem nonneg_l (v : Blk) (j : S1024x128.Idx) : k0_pay9 (F := Ideal) v j = nonneg (v j) := by
  unfold k0_pay9; rw [same_l]; rfl
theorem straddles_lu (l u : Blk) (j : S1024x128.Idx) : k0_pay10 (F := Ideal) l u j = straddles (l j) (u j) := by
  unfold k0_pay10
  show IntOp.xori (IntOp.ori (k0_pay8 (F := Ideal) u j) (k0_pay9 (F := Ideal) l j)) 1#1 = _
  rw [nonpos_u, nonneg_l]; rfl

/-- The chord slope and its two halves. -/
theorem slope_lu (l u : Blk) (j : S1024x128.Idx) : k0_pay11 (F := Ideal) l u j = slope (l j) (u j) := by
  unfold k0_pay11; rw [same_l, same_u]
  show FloatOps.divf (FloatOps.subf (k0_pay7 (F := Ideal) u j) (k0_pay6 (F := Ideal) l j)) (FloatOps.subf (u j) (l j)) = _
  rw [act_u, act_l]; rfl
theorem slopeLo_lu (l u : Blk) (j : S1024x128.Idx) : k0_pay12 (F := Ideal) l u j = slopeLo (l j) (u j) := by
  unfold k0_pay12
  show Scalar.select (k0_pay8 (F := Ideal) u j) (k0_pay11 (F := Ideal) l u j) zero = _
  rw [nonpos_u, slope_lu]; rfl
theorem slopeHi_lu (l u : Blk) (j : S1024x128.Idx) : k0_pay13 (F := Ideal) l u j = slopeHi (l j) (u j) := by
  unfold k0_pay13
  show Scalar.select (IntOp.ori (k0_pay9 (F := Ideal) l j) (k0_pay10 (F := Ideal) l u j)) (k0_pay11 (F := Ideal) l u j) zero = _
  rw [nonneg_l, straddles_lu, slope_lu]; rfl

/-- The constant 0 the slope is compared with. -/
theorem zero_blk (j : S1024x128.Idx) : k0_pay14 (F := Ideal) j = zero := rfl

/-- The first bounds. -/
theorem firstHi_at (sl su k z : Blk) (j : S1024x128.Idx) :
    k0_pay16 (F := Ideal) sl su k z j = firstHi (sl j) (su j) (k j) (z j) := rfl
theorem firstLo_at (sl su : Blk) (c : IVec S1024x128 1) (k z : Blk) (j : S1024x128.Idx) :
    k0_pay17 (F := Ideal) sl su c k z j = firstLo (sl j) (su j) (c j) (k j) (z j) := rfl

/-! ## One step back through the previous layer, position by position -/

theorem upperSlope_at (s1 pl pu : Blk) (j : S1024x128.Idx) :
    k0_pay26 (F := Ideal) s1 pl pu j = upperSlope (s1 j) (pl j) (pu j) := by
  unfold k0_pay26 k0_pay22 k0_pay23; rw [same_pl, same_pu]; rfl
theorem upperOffset_at (u sl su : Blk) (n : IVec S1024x128 1) (s1 ql qu : Blk) (j : S1024x128.Idx) :
    k0_pay27 (F := Ideal) u sl su n s1 ql qu j = upperOffset (u j) (sl j) (su j) (n j) (s1 j) (ql j) (qu j) := by
  unfold k0_pay27 k0_pay22 k0_pay23; rw [same_ql, same_qu]; rfl
theorem lowerSlope_at (s0 pl pu : Blk) (j : S1024x128.Idx) :
    k0_pay28 (F := Ideal) s0 pl pu j = lowerSlope (s0 j) (pl j) (pu j) := by
  unfold k0_pay28 k0_pay24 k0_pay25; rw [same_pl, same_pu]; rfl
theorem lowerOffset_at (l sl : Blk) (c : IVec S1024x128 1) (s0 ql qu : Blk) (j : S1024x128.Idx) :
    k0_pay29 (F := Ideal) l sl c s0 ql qu j = lowerOffset (l j) (sl j) (c j) (s0 j) (ql j) (qu j) := by
  unfold k0_pay29 k0_pay24 k0_pay25; rw [same_ql, same_qu]; rfl

theorem tightenLo_at (lo0 M V bl bu : Blk) (j : S1024x128.Idx) :
    k0_pay2 (F := Ideal) lo0 M V bl bu j = tightenLo (lo0 j) (M j) (V j) (bl j) (bu j) := by
  unfold k0_pay2; rw [same_bu]; rfl
theorem tightenHi_at (hi0 M V bl bu : Blk) (j : S1024x128.Idx) :
    k0_pay3 (F := Ideal) hi0 M V bl bu j = tightenHi (hi0 j) (M j) (V j) (bl j) (bu j) := by
  unfold k0_pay3; rw [same_bu]; rfl

/-! ## The two stored blocks -/

/-- The offsets of every load and store of the body are zero. -/
theorem offsets_zero : (![0, 0] : Fin 2 → Nat) = fun _ => 0 := funext fun a => by fin_cases a <;> rfl

/-- The block the body leaves in the first output window is the lower bound, neuron by neuron, of its eight loaded
    blocks. -/
theorem lower_block (l u pl pu ql qu bl bu : Blk) :
    out0_8 (F := Ideal) l u pl pu ql qu bl bu = lowerOver l u pl pu ql qu bl bu := by
  unfold out0_8
  rw [View.canon_unit_zero offsets_zero]
  simp only [View.ld_unit_zero (S := S1024x128) offsets_zero]
  funext j
  rw [tightenLo_at, firstLo_at, lowerSlope_at, lowerOffset_at, same_l, same_bl, act_l, act_u, straddles_lu, slope_lu,
    slopeLo_lu, zero_blk]
  rfl

/-- The block it leaves in the second output window is the upper bound. -/
theorem upper_block (l u pl pu ql qu bl bu : Blk) :
    out0_9 (F := Ideal) l u pl pu ql qu bl bu = upperOver l u pl pu ql qu bl bu := by
  unfold out0_9
  rw [View.canon_unit_zero offsets_zero]
  simp only [View.ld_unit_zero (S := S1024x128) offsets_zero]
  funext j
  rw [tightenHi_at, firstHi_at, upperSlope_at, upperOffset_at, same_u, same_bl, act_l, act_u, nonpos_u, slope_lu,
    slopeHi_lu, zero_blk]
  rfl

end Cert.KernelIdeal.Block

end
-- ==== Proof.KernelArrays.lean ====
/-
  From blocks to arrays. The kernel walks 64 grid points; at point t every one of its ten windows sits on block
  (t, 0) of its 65536 × 128 array, a tile of 1024 rows and all 128 lanes. So what point t writes back into either
  output array is that tile of ONE whole-array function — the neuron-by-neuron bound of the eight input arrays as the
  kernel finds them — because position j of the tile is array position (1024·t + j₀, j₁) in every window alike. Row r
  lies in the tile of point r / 1024, so the tiles cover each output array, and after the run each output array is
  that function everywhere.
-/
import proofs.«128677_j62002147885333_1_alg».proof.Proof.KernelBlock

noncomputable section

namespace Cert.KernelIdeal.Arrays

open Idealize.ShloMosaic Idealize.ShloMosaic.TcCoe Idealize.ShloMosaic.Pipeline Idealize.SL.Sem
open Cert.KernelIdeal Cert.KernelIdeal.Gen Cert.KernelIdeal.Block Cert.BoundSpec

variable (m : (ℓ : Loc nD τ sig) → Buf (Elt Ideal) ℓ)

/-- At grid point t every window's block index is (t, 0): decided over the 64 points. -/
theorem window_indices : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 0)
    ∧ (win0_6.index t (0 : Fin 2) = t.val ∧ win0_6.index t (1 : Fin 2) = 0)
    ∧ (win0_7.index t (0 : Fin 2) = t.val ∧ win0_7.index t (1 : Fin 2) = 0)
    ∧ (win0_8.index t (0 : Fin 2) = t.val ∧ win0_8.index t (1 : Fin 2) = 0)
    ∧ (win0_9.index t (0 : Fin 2) = t.val ∧ win0_9.index t (1 : Fin 2) = 0) :=
  (by decide +kernel : ∀ t : Fin grid0.N, _)

/-- Every one of the 64 row blocks is some point's. -/
theorem every_row_block : ∀ q : Fin 64, ∃ t : Fin cfg0.N, t.val = q.val :=
  (by decide +kernel : ∀ q : Fin 64, ∃ t : Fin grid0.N, t.val = q.val)

/-! ## An input tile is the input array read where the output tile sits

Position j of input window k's tile at point t is the array position that position j of the output window's tile
is: both are (1024·t + j₀, j₁). So the part of input tile k that a write-back of the output window would move is the
input array read through the output window's tile. One statement per input window and per output window. -/

theorem tile0_8 (c : Dev nD) (t : Fin cfg0.N) :
    (cfg0.win 8).cut (grid0.coords t) (iblk m c 0 t)
      = ((cfg0.win 8).blk t).view.read (Elt Ideal) (V m c main_v2) := by
  funext j
  obtain ⟨⟨r0, c0⟩, ⟨r1, c1⟩, ⟨r2, c2⟩, ⟨r3, c3⟩, ⟨r4, c4⟩, ⟨r5, c5⟩, ⟨r6, c6⟩, ⟨r7, c7⟩, ⟨r8, c8⟩, ⟨r9, c9⟩⟩ := window_indices t
  have h : ((cfg0.win 0).blk t).view.emb j = ((cfg0.win 8).blk t).view.emb j := by
    funext a; apply Fin.ext
    match a with
    | ⟨0, _⟩ => show win0_0.index t (0 : Fin 2) * 1024 + 1 * (j 0).val = win0_8.index t (0 : Fin 2) * 1024 + 1 * (j 0).val; omega
    | ⟨1, _⟩ => show win0_0.index t (1 : Fin 2) * 128 + 1 * (j 1).val = win0_8.index t (1 : Fin 2) * 128 + 1 * (j 1).val; omega
  show V m c main_v2 (((cfg0.win 0).blk t).view.emb j) = V m c main_v2 (((cfg0.win 8).blk t).view.emb j)
  rw [h]
theorem tile1_8 (c : Dev nD) (t : Fin cfg0.N) :
    (cfg0.win 8).cut (grid0.coords t) (iblk m c 1 t)
      = ((cfg0.win 8).blk t).view.read (Elt Ideal) (V m c main_v5) := by
  funext j
  obtain ⟨⟨r0, c0⟩, ⟨r1, c1⟩, ⟨r2, c2⟩, ⟨r3, c3⟩, ⟨r4, c4⟩, ⟨r5, c5⟩, ⟨r6, c6⟩, ⟨r7, c7⟩, ⟨r8, c8⟩, ⟨r9, c9⟩⟩ := window_indices t
  have h : ((cfg0.win 1).blk t).view.emb j = ((cfg0.win 8).blk t).view.emb j := by
    funext a; apply Fin.ext
    match a with
    | ⟨0, _⟩ => show win0_1.index t (0 : Fin 2) * 1024 + 1 * (j 0).val = win0_8.index t (0 : Fin 2) * 1024 + 1 * (j 0).val; omega
    | ⟨1, _⟩ => show win0_1.index t (1 : Fin 2) * 128 + 1 * (j 1).val = win0_8.index t (1 : Fin 2) * 128 + 1 * (j 1).val; omega
  show V m c main_v5 (((cfg0.win 1).blk t).view.emb j) = V m c main_v5 (((cfg0.win 8).blk t).view.emb j)
  rw [h]
theorem tile2_8 (c : Dev nD) (t : Fin cfg0.N) :
    (cfg0.win 8).cut (grid0.coords t) (iblk m c 2 t)
      = ((cfg0.win 8).blk t).view.read (Elt Ideal) (V m c main_v8) := by
  funext j
  obtain ⟨⟨r0, c0⟩, ⟨r1, c1⟩, ⟨r2, c2⟩, ⟨r3, c3⟩, ⟨r4, c4⟩, ⟨r5, c5⟩, ⟨r6, c6⟩, ⟨r7, c7⟩, ⟨r8, c8⟩, ⟨r9, c9⟩⟩ := window_indices t
  have h : ((cfg0.win 2).blk t).view.emb j = ((cfg0.win 8).blk t).view.emb j := by
    funext a; apply Fin.ext
    match a with
    | ⟨0, _⟩ => show win0_2.index t (0 : Fin 2) * 1024 + 1 * (j 0).val = win0_8.index t (0 : Fin 2) * 1024 + 1 * (j 0).val; omega
    | ⟨1, _⟩ => show win0_2.index t (1 : Fin 2) * 128 + 1 * (j 1).val = win0_8.index t (1 : Fin 2) * 128 + 1 * (j 1).val; omega
  show V m c main_v8 (((cfg0.win 2).blk t).view.emb j) = V m c main_v8 (((cfg0.win 8).blk t).view.emb j)
  rw [h]
theorem tile3_8 (c : Dev nD) (t : Fin cfg0.N) :
    (cfg0.win 8).cut (grid0.coords t) (iblk m c 3 t)
      = ((cfg0.win 8).blk t).view.read (Elt Ideal) (V m c main_v11) := by
  funext j
  obtain ⟨⟨r0, c0⟩, ⟨r1, c1⟩, ⟨r2, c2⟩, ⟨r3, c3⟩, ⟨r4, c4⟩, ⟨r5, c5⟩, ⟨r6, c6⟩, ⟨r7, c7⟩, ⟨r8, c8⟩, ⟨r9, c9⟩⟩ := window_indices t
  have h : ((cfg0.win 3).blk t).view.emb j = ((cfg0.win 8).blk t).view.emb j := by
    funext a; apply Fin.ext
    match a with
    | ⟨0, _⟩ => show win0_3.index t (0 : Fin 2) * 1024 + 1 * (j 0).val = win0_8.index t (0 : Fin 2) * 1024 + 1 * (j 0).val; omega
    | ⟨1, _⟩ => show win0_3.index t (1 : Fin 2) * 128 + 1 * (j 1).val = win0_8.index t (1 : Fin 2) * 128 + 1 * (j 1).val; omega
  show V m c main_v11 (((cfg0.win 3).blk t).view.emb j) = V m c main_v11 (((cfg0.win 8).blk t).view.emb j)
  rw [h]
theorem tile4_8 (c : Dev nD) (t : Fin cfg0.N) :
    (cfg0.win 8).cut (grid0.coords t) (iblk m c 4 t)
      = ((cfg0.win 8).blk t).view.read (Elt Ideal) (V m c main_v14) := by
  funext j
  obtain ⟨⟨r0, c0⟩, ⟨r1, c1⟩, ⟨r2, c2⟩, ⟨r3, c3⟩, ⟨r4, c4⟩, ⟨r5, c5⟩, ⟨r6, c6⟩, ⟨r7, c7⟩, ⟨r8, c8⟩, ⟨r9, c9⟩⟩ := window_indices t
  have h : ((cfg0.win 4).blk t).view.emb j = ((cfg0.win 8).blk t).view.emb j := by
    funext a; apply Fin.ext
    match a with
    | ⟨0, _⟩ => show win0_4.index t (0 : Fin 2) * 1024 + 1 * (j 0).val = win0_8.index t (0 : Fin 2) * 1024 + 1 * (j 0).val; omega
    | ⟨1, _⟩ => show win0_4.index t (1 : Fin 2) * 128 + 1 * (j 1).val = win0_8.index t (1 : Fin 2) * 128 + 1 * (j 1).val; omega
  show V m c main_v14 (((cfg0.win 4).blk t).view.emb j) = V m c main_v14 (((cfg0.win 8).blk t).view.emb j)
  rw [h]
theorem tile5_8 (c : Dev nD) (t : Fin cfg0.N) :
    (cfg0.win 8).cut (grid0.coords t) (iblk m c 5 t)
      = ((cfg0.win 8).blk t).view.read (Elt Ideal) (V m c main_v17) := by
  funext j
  obtain ⟨⟨r0, c0⟩, ⟨r1, c1⟩, ⟨r2, c2⟩, ⟨r3, c3⟩, ⟨r4, c4⟩, ⟨r5, c5⟩, ⟨r6, c6⟩, ⟨r7, c7⟩, ⟨r8, c8⟩, ⟨r9, c9⟩⟩ := window_indices t
  have h : ((cfg0.win 5).blk t).view.emb j = ((cfg0.win 8).blk t).view.emb j := by
    funext a; apply Fin.ext
    match a with
    | ⟨0, _⟩ => show win0_5.index t (0 : Fin 2) * 1024 + 1 * (j 0).val = win0_8.index t (0 : Fin 2) * 1024 + 1 * (j 0).val; omega
    | ⟨1, _⟩ => show win0_5.index t (1 : Fin 2) * 128 + 1 * (j 1).val = win0_8.index t (1 : Fin 2) * 128 + 1 * (j 1).val; omega
  show V m c main_v17 (((cfg0.win 5).blk t).view.emb j) = V m c main_v17 (((cfg0.win 8).blk t).view.emb j)
  rw [h]
theorem tile6_8 (c : Dev nD) (t : Fin cfg0.N) :
    (cfg0.win 8).cut (grid0.coords t) (iblk m c 6 t)
      = ((cfg0.win 8).blk t).view.read (Elt Ideal) (V m c main_v20) := by
  funext j
  obtain ⟨⟨r0, c0⟩, ⟨r1, c1⟩, ⟨r2, c2⟩, ⟨r3, c3⟩, ⟨r4, c4⟩, ⟨r5, c5⟩, ⟨r6, c6⟩, ⟨r7, c7⟩, ⟨r8, c8⟩, ⟨r9, c9⟩⟩ := window_indices t
  have h : ((cfg0.win 6).blk t).view.emb j = ((cfg0.win 8).blk t).view.emb j := by
    funext a; apply Fin.ext
    match a with
    | ⟨0, _⟩ => show win0_6.index t (0 : Fin 2) * 1024 + 1 * (j 0).val = win0_8.index t (0 : Fin 2) * 1024 + 1 * (j 0).val; omega
    | ⟨1, _⟩ => show win0_6.index t (1 : Fin 2) * 128 + 1 * (j 1).val = win0_8.index t (1 : Fin 2) * 128 + 1 * (j 1).val; omega
  show V m c main_v20 (((cfg0.win 6).blk t).view.emb j) = V m c main_v20 (((cfg0.win 8).blk t).view.emb j)
  rw [h]
theorem tile7_8 (c : Dev nD) (t : Fin cfg0.N) :
    (cfg0.win 8).cut (grid0.coords t) (iblk m c 7 t)
      = ((cfg0.win 8).blk t).view.read (Elt Ideal) (V m c main_v23) := by
  funext j
  obtain ⟨⟨r0, c0⟩, ⟨r1, c1⟩, ⟨r2, c2⟩, ⟨r3, c3⟩, ⟨r4, c4⟩, ⟨r5, c5⟩, ⟨r6, c6⟩, ⟨r7, c7⟩, ⟨r8, c8⟩, ⟨r9, c9⟩⟩ := window_indices t
  have h : ((cfg0.win 7).blk t).view.emb j = ((cfg0.win 8).blk t).view.emb j := by
    funext a; apply Fin.ext
    match a with
    | ⟨0, _⟩ => show win0_7.index t (0 : Fin 2) * 1024 + 1 * (j 0).val = win0_8.index t (0 : Fin 2) * 1024 + 1 * (j 0).val; omega
    | ⟨1, _⟩ => show win0_7.index t (1 : Fin 2) * 128 + 1 * (j 1).val = win0_8.index t (1 : Fin 2) * 128 + 1 * (j 1).val; omega
  show V m c main_v23 (((cfg0.win 7).blk t).view.emb j) = V m c main_v23 (((cfg0.win 8).blk t).view.emb j)
  rw [h]

theorem tile0_9 (c : Dev nD) (t : Fin cfg0.N) :
    (cfg0.win 9).cut (grid0.coords t) (iblk m c 0 t)
      = ((cfg0.win 9).blk t).view.read (Elt Ideal) (V m c main_v2) := by
  funext j
  obtain ⟨⟨r0, c0⟩, ⟨r1, c1⟩, ⟨r2, c2⟩, ⟨r3, c3⟩, ⟨r4, c4⟩, ⟨r5, c5⟩, ⟨r6, c6⟩, ⟨r7, c7⟩, ⟨r8, c8⟩, ⟨r9, c9⟩⟩ := window_indices t
  have h : ((cfg0.win 0).blk t).view.emb j = ((cfg0.win 9).blk t).view.emb j := by
    funext a; apply Fin.ext
    match a with
    | ⟨0, _⟩ => show win0_0.index t (0 : Fin 2) * 1024 + 1 * (j 0).val = win0_9.index t (0 : Fin 2) * 1024 + 1 * (j 0).val; omega
    | ⟨1, _⟩ => show win0_0.index t (1 : Fin 2) * 128 + 1 * (j 1).val = win0_9.index t (1 : Fin 2) * 128 + 1 * (j 1).val; omega
  show V m c main_v2 (((cfg0.win 0).blk t).view.emb j) = V m c main_v2 (((cfg0.win 9).blk t).view.emb j)
  rw [h]
theorem tile1_9 (c : Dev nD) (t : Fin cfg0.N) :
    (cfg0.win 9).cut (grid0.coords t) (iblk m c 1 t)
      = ((cfg0.win 9).blk t).view.read (Elt Ideal) (V m c main_v5) := by
  funext j
  obtain ⟨⟨r0, c0⟩, ⟨r1, c1⟩, ⟨r2, c2⟩, ⟨r3, c3⟩, ⟨r4, c4⟩, ⟨r5, c5⟩, ⟨r6, c6⟩, ⟨r7, c7⟩, ⟨r8, c8⟩, ⟨r9, c9⟩⟩ := window_indices t
  have h : ((cfg0.win 1).blk t).view.emb j = ((cfg0.win 9).blk t).view.emb j := by
    funext a; apply Fin.ext
    match a with
    | ⟨0, _⟩ => show win0_1.index t (0 : Fin 2) * 1024 + 1 * (j 0).val = win0_9.index t (0 : Fin 2) * 1024 + 1 * (j 0).val; omega
    | ⟨1, _⟩ => show win0_1.index t (1 : Fin 2) * 128 + 1 * (j 1).val = win0_9.index t (1 : Fin 2) * 128 + 1 * (j 1).val; omega
  show V m c main_v5 (((cfg0.win 1).blk t).view.emb j) = V m c main_v5 (((cfg0.win 9).blk t).view.emb j)
  rw [h]
theorem tile2_9 (c : Dev nD) (t : Fin cfg0.N) :
    (cfg0.win 9).cut (grid0.coords t) (iblk m c 2 t)
      = ((cfg0.win 9).blk t).view.read (Elt Ideal) (V m c main_v8) := by
  funext j
  obtain ⟨⟨r0, c0⟩, ⟨r1, c1⟩, ⟨r2, c2⟩, ⟨r3, c3⟩, ⟨r4, c4⟩, ⟨r5, c5⟩, ⟨r6, c6⟩, ⟨r7, c7⟩, ⟨r8, c8⟩, ⟨r9, c9⟩⟩ := window_indices t
  have h : ((cfg0.win 2).blk t).view.emb j = ((cfg0.win 9).blk t).view.emb j := by
    funext a; apply Fin.ext
    match a with
    | ⟨0, _⟩ => show win0_2.index t (0 : Fin 2) * 1024 + 1 * (j 0).val = win0_9.index t (0 : Fin 2) * 1024 + 1 * (j 0).val; omega
    | ⟨1, _⟩ => show win0_2.index t (1 : Fin 2) * 128 + 1 * (j 1).val = win0_9.index t (1 : Fin 2) * 128 + 1 * (j 1).val; omega
  show V m c main_v8 (((cfg0.win 2).blk t).view.emb j) = V m c main_v8 (((cfg0.win 9).blk t).view.emb j)
  rw [h]
theorem tile3_9 (c : Dev nD) (t : Fin cfg0.N) :
    (cfg0.win 9).cut (grid0.coords t) (iblk m c 3 t)
      = ((cfg0.win 9).blk t).view.read (Elt Ideal) (V m c main_v11) := by
  funext j
  obtain ⟨⟨r0, c0⟩, ⟨r1, c1⟩, ⟨r2, c2⟩, ⟨r3, c3⟩, ⟨r4, c4⟩, ⟨r5, c5⟩, ⟨r6, c6⟩, ⟨r7, c7⟩, ⟨r8, c8⟩, ⟨r9, c9⟩⟩ := window_indices t
  have h : ((cfg0.win 3).blk t).view.emb j = ((cfg0.win 9).blk t).view.emb j := by
    funext a; apply Fin.ext
    match a with
    | ⟨0, _⟩ => show win0_3.index t (0 : Fin 2) * 1024 + 1 * (j 0).val = win0_9.index t (0 : Fin 2) * 1024 + 1 * (j 0).val; omega
    | ⟨1, _⟩ => show win0_3.index t (1 : Fin 2) * 128 + 1 * (j 1).val = win0_9.index t (1 : Fin 2) * 128 + 1 * (j 1).val; omega
  show V m c main_v11 (((cfg0.win 3).blk t).view.emb j) = V m c main_v11 (((cfg0.win 9).blk t).view.emb j)
  rw [h]
theorem tile4_9 (c : Dev nD) (t : Fin cfg0.N) :
    (cfg0.win 9).cut (grid0.coords t) (iblk m c 4 t)
      = ((cfg0.win 9).blk t).view.read (Elt Ideal) (V m c main_v14) := by
  funext j
  obtain ⟨⟨r0, c0⟩, ⟨r1, c1⟩, ⟨r2, c2⟩, ⟨r3, c3⟩, ⟨r4, c4⟩, ⟨r5, c5⟩, ⟨r6, c6⟩, ⟨r7, c7⟩, ⟨r8, c8⟩, ⟨r9, c9⟩⟩ := window_indices t
  have h : ((cfg0.win 4).blk t).view.emb j = ((cfg0.win 9).blk t).view.emb j := by
    funext a; apply Fin.ext
    match a with
    | ⟨0, _⟩ => show win0_4.index t (0 : Fin 2) * 1024 + 1 * (j 0).val = win0_9.index t (0 : Fin 2) * 1024 + 1 * (j 0).val; omega
    | ⟨1, _⟩ => show win0_4.index t (1 : Fin 2) * 128 + 1 * (j 1).val = win0_9.index t (1 : Fin 2) * 128 + 1 * (j 1).val; omega
  show V m c main_v14 (((cfg0.win 4).blk t).view.emb j) = V m c main_v14 (((cfg0.win 9).blk t).view.emb j)
  rw [h]
theorem tile5_9 (c : Dev nD) (t : Fin cfg0.N) :
    (cfg0.win 9).cut (grid0.coords t) (iblk m c 5 t)
      = ((cfg0.win 9).blk t).view.read (Elt Ideal) (V m c main_v17) := by
  funext j
  obtain ⟨⟨r0, c0⟩, ⟨r1, c1⟩, ⟨r2, c2⟩, ⟨r3, c3⟩, ⟨r4, c4⟩, ⟨r5, c5⟩, ⟨r6, c6⟩, ⟨r7, c7⟩, ⟨r8, c8⟩, ⟨r9, c9⟩⟩ := window_indices t
  have h : ((cfg0.win 5).blk t).view.emb j = ((cfg0.win 9).blk t).view.emb j := by
    funext a; apply Fin.ext
    match a with
    | ⟨0, _⟩ => show win0_5.index t (0 : Fin 2) * 1024 + 1 * (j 0).val = win0_9.index t (0 : Fin 2) * 1024 + 1 * (j 0).val; omega
    | ⟨1, _⟩ => show win0_5.index t (1 : Fin 2) * 128 + 1 * (j 1).val = win0_9.index t (1 : Fin 2) * 128 + 1 * (j 1).val; omega
  show V m c main_v17 (((cfg0.win 5).blk t).view.emb j) = V m c main_v17 (((cfg0.win 9).blk t).view.emb j)
  rw [h]
theorem tile6_9 (c : Dev nD) (t : Fin cfg0.N) :
    (cfg0.win 9).cut (grid0.coords t) (iblk m c 6 t)
      = ((cfg0.win 9).blk t).view.read (Elt Ideal) (V m c main_v20) := by
  funext j
  obtain ⟨⟨r0, c0⟩, ⟨r1, c1⟩, ⟨r2, c2⟩, ⟨r3, c3⟩, ⟨r4, c4⟩, ⟨r5, c5⟩, ⟨r6, c6⟩, ⟨r7, c7⟩, ⟨r8, c8⟩, ⟨r9, c9⟩⟩ := window_indices t
  have h : ((cfg0.win 6).blk t).view.emb j = ((cfg0.win 9).blk t).view.emb j := by
    funext a; apply Fin.ext
    match a with
    | ⟨0, _⟩ => show win0_6.index t (0 : Fin 2) * 1024 + 1 * (j 0).val = win0_9.index t (0 : Fin 2) * 1024 + 1 * (j 0).val; omega
    | ⟨1, _⟩ => show win0_6.index t (1 : Fin 2) * 128 + 1 * (j 1).val = win0_9.index t (1 : Fin 2) * 128 + 1 * (j 1).val; omega
  show V m c main_v20 (((cfg0.win 6).blk t).view.emb j) = V m c main_v20 (((cfg0.win 9).blk t).view.emb j)
  rw [h]
theorem tile7_9 (c : Dev nD) (t : Fin cfg0.N) :
    (cfg0.win 9).cut (grid0.coords t) (iblk m c 7 t)
      = ((cfg0.win 9).blk t).view.read (Elt Ideal) (V m c main_v23) := by
  funext j
  obtain ⟨⟨r0, c0⟩, ⟨r1, c1⟩, ⟨r2, c2⟩, ⟨r3, c3⟩, ⟨r4, c4⟩, ⟨r5, c5⟩, ⟨r6, c6⟩, ⟨r7, c7⟩, ⟨r8, c8⟩, ⟨r9, c9⟩⟩ := window_indices t
  have h : ((cfg0.win 7).blk t).view.emb j = ((cfg0.win 9).blk t).view.emb j := by
    funext a; apply Fin.ext
    match a with
    | ⟨0, _⟩ => show win0_7.index t (0 : Fin 2) * 1024 + 1 * (j 0).val = win0_9.index t (0 : Fin 2) * 1024 + 1 * (j 0).val; omega
    | ⟨1, _⟩ => show win0_7.index t (1 : Fin 2) * 128 + 1 * (j 1).val = win0_9.index t (1 : Fin 2) * 128 + 1 * (j 1).val; omega
  show V m c main_v23 (((cfg0.win 7).blk t).view.emb j) = V m c main_v23 (((cfg0.win 9).blk t).view.emb j)
  rw [h]

/-! ## What a point writes back -/

/-- The neuron-by-neuron bounds at one index. -/
theorem lowerOver_at {ι : Type} (l u pl pu ql qu bl bu : ι → Ideal .f32) (i : ι) :
    lowerOver l u pl pu ql qu bl bu i = lower (l i) (u i) (pl i) (pu i) (ql i) (qu i) (bl i) (bu i) := rfl
theorem upperOver_at {ι : Type} (l u pl pu ql qu bl bu : ι → Ideal .f32) (i : ι) :
    upperOver l u pl pu ql qu bl bu i = upper (l i) (u i) (pl i) (pu i) (ql i) (qu i) (bl i) (bu i) := rfl

/-- The part of a block that a write-back of output window 8 moves, taken of a neuron-by-neuron lower bound of eight
    blocks and read at a position, is the lower bound of the eight parts read there. -/
theorem moved_lower_at (t : Fin cfg0.N) (X0 X1 X2 X3 X4 X5 X6 X7 : S1024x128.Idx → Ideal .f32)
    (j : ((cfg0.win 8).xblock (grid0.coords t)).Idx) :
    (cfg0.win 8).cut (grid0.coords t) (lowerOver X0 X1 X2 X3 X4 X5 X6 X7) j
      = lower ((cfg0.win 8).cut (grid0.coords t) X0 j) ((cfg0.win 8).cut (grid0.coords t) X1 j)
          ((cfg0.win 8).cut (grid0.coords t) X2 j) ((cfg0.win 8).cut (grid0.coords t) X3 j)
          ((cfg0.win 8).cut (grid0.coords t) X4 j) ((cfg0.win 8).cut (grid0.coords t) X5 j)
          ((cfg0.win 8).cut (grid0.coords t) X6 j) ((cfg0.win 8).cut (grid0.coords t) X7 j) := rfl

/-- Reading output window 8's tile of an array at a position is the array at the tile's position there. -/
theorem tile8_at (t : Fin cfg0.N) (A : S65536x128.Idx → Ideal .f32)
    (j : ((cfg0.win 8).xblock (grid0.coords t)).Idx) :
    ((cfg0.win 8).blk t).view.read (Elt Ideal) A j = A (((cfg0.win 8).blk t).view.emb j) := rfl

/-- The part of a block that a write-back of output window 9 moves, taken of a neuron-by-neuron upper bound of eight
    blocks and read at a position, is the upper bound of the eight parts read there. -/
theorem moved_upper_at (t : Fin cfg0.N) (X0 X1 X2 X3 X4 X5 X6 X7 : S1024x128.Idx → Ideal .f32)
    (j : ((cfg0.win 9).xblock (grid0.coords t)).Idx) :
    (cfg0.win 9).cut (grid0.coords t) (upperOver X0 X1 X2 X3 X4 X5 X6 X7) j
      = upper ((cfg0.win 9).cut (grid0.coords t) X0 j) ((cfg0.win 9).cut (grid0.coords t) X1 j)
          ((cfg0.win 9).cut (grid0.coords t) X2 j) ((cfg0.win 9).cut (grid0.coords t) X3 j)
          ((cfg0.win 9).cut (grid0.coords t) X4 j) ((cfg0.win 9).cut (grid0.coords t) X5 j)
          ((cfg0.win 9).cut (grid0.coords t) X6 j) ((cfg0.win 9).cut (grid0.coords t) X7 j) := rfl

/-- Reading output window 9's tile of an array at a position is the array at the tile's position there. -/
theorem tile9_at (t : Fin cfg0.N) (A : S65536x128.Idx → Ideal .f32)
    (j : ((cfg0.win 9).xblock (grid0.coords t)).Idx) :
    ((cfg0.win 9).blk t).view.read (Elt Ideal) A j = A (((cfg0.win 9).blk t).view.emb j) := rfl

/-- Into the first output array: its tile of the lower bounds of the input arrays. Taking the written part of a
    block and reading a tile of an array both act position by position, so they pass inside the neuron-by-neuron bound. -/
theorem lower_written (c : Dev nD) (t : Fin cfg0.N) :
    (dats m 0 c).flushed 8 t = ((cfg0.win 8).blk t).view.read (Elt Ideal) (lowerOver (V m c main_v2) (V m c main_v5) (V m c main_v8) (V m c main_v11) (V m c main_v14) (V m c main_v17) (V m c main_v20) (V m c main_v23)) := by
  show (cfg0.win 8).cut (grid0.coords t) ((dats m 0 c).after 8 t) = _
  rw [after0_8, lower_block]
  funext j
  rw [moved_lower_at t (iblk m c 0 t) (iblk m c 1 t) (iblk m c 2 t) (iblk m c 3 t) (iblk m c 4 t) (iblk m c 5 t)
      (iblk m c 6 t) (iblk m c 7 t) j,
    congrFun (tile0_8 m c t) j, congrFun (tile1_8 m c t) j, congrFun (tile2_8 m c t) j, congrFun (tile3_8 m c t) j,
    congrFun (tile4_8 m c t) j, congrFun (tile5_8 m c t) j, congrFun (tile6_8 m c t) j, congrFun (tile7_8 m c t) j,
    tile8_at t (lowerOver (V m c main_v2) (V m c main_v5) (V m c main_v8) (V m c main_v11) (V m c main_v14) (V m c main_v17) (V m c main_v20) (V m c main_v23)) j,
    tile8_at t (V m c main_v2) j, tile8_at t (V m c main_v5) j, tile8_at t (V m c main_v8) j, tile8_at t (V m c main_v11) j, tile8_at t (V m c main_v14) j, tile8_at t (V m c main_v17) j, tile8_at t (V m c main_v20) j, tile8_at t (V m c main_v23) j,
    lowerOver_at]

/-- Into the second output array: its tile of the upper bounds. -/
theorem upper_written (c : Dev nD) (t : Fin cfg0.N) :
    (dats m 0 c).flushed 9 t = ((cfg0.win 9).blk t).view.read (Elt Ideal) (upperOver (V m c main_v2) (V m c main_v5) (V m c main_v8) (V m c main_v11) (V m c main_v14) (V m c main_v17) (V m c main_v20) (V m c main_v23)) := by
  show (cfg0.win 9).cut (grid0.coords t) ((dats m 0 c).after 9 t) = _
  rw [after0_9, upper_block]
  funext j
  rw [moved_upper_at t (iblk m c 0 t) (iblk m c 1 t) (iblk m c 2 t) (iblk m c 3 t) (iblk m c 4 t) (iblk m c 5 t)
      (iblk m c 6 t) (iblk m c 7 t) j,
    congrFun (tile0_9 m c t) j, congrFun (tile1_9 m c t) j, congrFun (tile2_9 m c t) j, congrFun (tile3_9 m c t) j,
    congrFun (tile4_9 m c t) j, congrFun (tile5_9 m c t) j, congrFun (tile6_9 m c t) j, congrFun (tile7_9 m c t) j,
    tile9_at t (upperOver (V m c main_v2) (V m c main_v5) (V m c main_v8) (V m c main_v11) (V m c main_v14) (V m c main_v17) (V m c main_v20) (V m c main_v23)) j,
    tile9_at t (V m c main_v2) j, tile9_at t (V m c main_v5) j, tile9_at t (V m c main_v8) j, tile9_at t (V m c main_v11) j, tile9_at t (V m c main_v14) j, tile9_at t (V m c main_v17) j, tile9_at t (V m c main_v20) j, tile9_at t (V m c main_v23) j,
    upperOver_at]

/-! ## The tiles cover the arrays -/

/-- An array position is in point t's tile iff each coordinate is in the tile's range. -/
theorem mem_lower_tile (t : Fin cfg0.N) (i : S65536x128.Idx) :
    i ∈ ((cfg0.win 8).blk t).view.set ↔ ∀ a : Fin 2, win0_8.index t a * S1024x128.size a ≤ (i a).val ∧ (i a).val < win0_8.index t a * S1024x128.size a + S1024x128.size a := by
  show i ∈ ((View.whole main_v24_0).slice (win0_8.rect t)).set ↔ _
  rw [View.set_slice_whole, Rect.mem_set_unit]
  exact Iff.rfl
theorem mem_upper_tile (t : Fin cfg0.N) (i : S65536x128.Idx) :
    i ∈ ((cfg0.win 9).blk t).view.set ↔ ∀ a : Fin 2, win0_9.index t a * S1024x128.size a ≤ (i a).val ∧ (i a).val < win0_9.index t a * S1024x128.size a + S1024x128.size a := by
  show i ∈ ((View.whole main_v24_1).slice (win0_9.rect t)).set ↔ _
  rw [View.set_slice_whole, Rect.mem_set_unit]
  exact Iff.rfl

/-- Row r is in the tile of point r / 1024. -/
theorem lower_covered (i : S65536x128.Idx) :
    ∃ t : Fin cfg0.N, (cfg0.win 8).flush t = true ∧ i ∈ ((cfg0.win 8).blk t).view.set := by
  have hi0 : (i 0).val < 65536 := (i 0).isLt
  have hi1 : (i 1).val < 128 := (i 1).isLt
  obtain ⟨t, ht⟩ := every_row_block ⟨(i 0).val / 1024, by omega⟩
  obtain ⟨⟨r0, c0⟩, ⟨r1, c1⟩, ⟨r2, c2⟩, ⟨r3, c3⟩, ⟨r4, c4⟩, ⟨r5, c5⟩, ⟨r6, c6⟩, ⟨r7, c7⟩, ⟨r8, c8⟩, ⟨r9, c9⟩⟩ := window_indices t
  have q : t.val = (i 0).val / 1024 := ht
  refine ⟨t, flush0_8 t, ?_⟩
  rw [mem_lower_tile]
  intro a
  match a with
  | ⟨0, _⟩ => show win0_8.index t (0 : Fin 2) * 1024 ≤ (i 0).val ∧ (i 0).val < win0_8.index t (0 : Fin 2) * 1024 + 1024; omega
  | ⟨1, _⟩ => show win0_8.index t (1 : Fin 2) * 128 ≤ (i 1).val ∧ (i 1).val < win0_8.index t (1 : Fin 2) * 128 + 128; omega
theorem upper_covered (i : S65536x128.Idx) :
    ∃ t : Fin cfg0.N, (cfg0.win 9).flush t = true ∧ i ∈ ((cfg0.win 9).blk t).view.set := by
  have hi0 : (i 0).val < 65536 := (i 0).isLt
  have hi1 : (i 1).val < 128 := (i 1).isLt
  obtain ⟨t, ht⟩ := every_row_block ⟨(i 0).val / 1024, by omega⟩
  obtain ⟨⟨r0, c0⟩, ⟨r1, c1⟩, ⟨r2, c2⟩, ⟨r3, c3⟩, ⟨r4, c4⟩, ⟨r5, c5⟩, ⟨r6, c6⟩, ⟨r7, c7⟩, ⟨r8, c8⟩, ⟨r9, c9⟩⟩ := window_indices t
  have q : t.val = (i 0).val / 1024 := ht
  refine ⟨t, flush0_9 t, ?_⟩
  rw [mem_upper_tile]
  intro a
  match a with
  | ⟨0, _⟩ => show win0_9.index t (0 : Fin 2) * 1024 ≤ (i 0).val ∧ (i 0).val < win0_9.index t (0 : Fin 2) * 1024 + 1024; omega
  | ⟨1, _⟩ => show win0_9.index t (1 : Fin 2) * 128 ≤ (i 1).val ∧ (i 1).val < win0_9.index t (1 : Fin 2) * 128 + 128; omega

/-! ## The output arrays after the run -/

theorem lower_array (c : Dev nD) :
    (dats m 0 c).arrAt 8 cfg0.N = lowerOver (V m c main_v2) (V m c main_v5) (V m c main_v8) (V m c main_v11) (V m c main_v14) (V m c main_v17) (V m c main_v20) (V m c main_v23) :=
  (dats m 0 c).arrAt_eq_of_cover 8 _ (fun t _ => lower_written m c t) lower_covered

theorem upper_array (c : Dev nD) :
    (dats m 0 c).arrAt 9 cfg0.N = upperOver (V m c main_v2) (V m c main_v5) (V m c main_v8) (V m c main_v11) (V m c main_v14) (V m c main_v17) (V m c main_v20) (V m c main_v23) :=
  (dats m 0 c).arrAt_eq_of_cover 9 _ (fun t _ => upper_written m c t) upper_covered

end Cert.KernelIdeal.Arrays

end
-- ==== Proof.KernelWhole.lean ====
/-
  The kernel as a whole. Before its one region the program cuts each argument into its two columns and lays each
  column out as a 65536 × 128 array, row-major over the neurons; after the region it flattens the two output arrays
  back to vectors over the neurons and joins them as the columns of the result. Laying a vector out and flattening it
  again is the identity, and both steps only relabel the neurons, which taking bounds neuron by neuron does not see.
  So the result is the specification's array of bounds of the four arguments.
-/
import proofs.«128677_j62002147885333_1_alg».proof.Proof.KernelArrays
import Idealize.ShloMosaic.Lib.StableHlo.Run

noncomputable section

namespace Cert.KernelIdeal.Whole

open Idealize.ShloMosaic Idealize.ShloMosaic.TcCoe Idealize.ShloMosaic.Pipeline Idealize.SL.Sem Idealize.ShloMosaic.StableHlo
open Cert.KernelIdeal Cert.KernelIdeal.Gen Cert.KernelIdeal.Arrays Cert.BoundSpec

variable (m : (ℓ : Loc nD τ sig) → Buf (Elt Ideal) ℓ) (ρ : Dev nD → PrngReg)

/-! ## The eight input arrays as the region finds them: a column of an argument, laid out 65536 × 128 -/

theorem ends_first (c : Dev nD) :
    (V m c main_v2 : S65536x128.Idx → Ideal .f32)
      = shapeCast S65536x128 (firstOf (m ((c : Thread nD τ).loc main_arg0))) shapeCasts_S8388608_S65536x128 := by
  show StableHlo.after hostOps0 (fun b => m (c, b)) (Proc.devRef .tc main_v2) = _
  after_results
  rfl
theorem ends_second (c : Dev nD) :
    (V m c main_v5 : S65536x128.Idx → Ideal .f32)
      = shapeCast S65536x128 (secondOf (m ((c : Thread nD τ).loc main_arg0))) shapeCasts_S8388608_S65536x128 := by
  show StableHlo.after hostOps0 (fun b => m (c, b)) (Proc.devRef .tc main_v5) = _
  after_results
  rfl
theorem slopes_first (c : Dev nD) :
    (V m c main_v8 : S65536x128.Idx → Ideal .f32)
      = shapeCast S65536x128 (firstOf (m ((c : Thread nD τ).loc main_arg1))) shapeCasts_S8388608_S65536x128 := by
  show StableHlo.after hostOps0 (fun b => m (c, b)) (Proc.devRef .tc main_v8) = _
  after_results
  rfl
theorem slopes_second (c : Dev nD) :
    (V m c main_v11 : S65536x128.Idx → Ideal .f32)
      = shapeCast S65536x128 (secondOf (m ((c : Thread nD τ).loc main_arg1))) shapeCasts_S8388608_S65536x128 := by
  show StableHlo.after hostOps0 (fun b => m (c, b)) (Proc.devRef .tc main_v11) = _
  after_results
  rfl
theorem offsets_first (c : Dev nD) :
    (V m c main_v14 : S65536x128.Idx → Ideal .f32)
      = shapeCast S65536x128 (firstOf (m ((c : Thread nD τ).loc main_arg2))) shapeCasts_S8388608_S65536x128 := by
  show StableHlo.after hostOps0 (fun b => m (c, b)) (Proc.devRef .tc main_v14) = _
  after_results
  rfl
theorem offsets_second (c : Dev nD) :
    (V m c main_v17 : S65536x128.Idx → Ideal .f32)
      = shapeCast S65536x128 (secondOf (m ((c : Thread nD τ).loc main_arg2))) shapeCasts_S8388608_S65536x128 := by
  show StableHlo.after hostOps0 (fun b => m (c, b)) (Proc.devRef .tc main_v17) = _
  after_results
  rfl
theorem prior_first (c : Dev nD) :
    (V m c main_v20 : S65536x128.Idx → Ideal .f32)
      = shapeCast S65536x128 (firstOf (m ((c : Thread nD τ).loc main_arg3))) shapeCasts_S8388608_S65536x128 := by
  show StableHlo.after hostOps0 (fun b => m (c, b)) (Proc.devRef .tc main_v20) = _
  after_results
  rfl
theorem prior_second (c : Dev nD) :
    (V m c main_v23 : S65536x128.Idx → Ideal .f32)
      = shapeCast S65536x128 (secondOf (m ((c : Thread nD τ).loc main_arg3))) shapeCasts_S8388608_S65536x128 := by
  show StableHlo.after hostOps0 (fun b => m (c, b)) (Proc.devRef .tc main_v23) = _
  after_results
  rfl

/-- Laying a vector over the neurons out as 65536 × 128 and flattening it again gives the vector back. -/
theorem laid_out_and_back (x : Neurons.Idx → Ideal .f32) :
    shapeCast S8388608 (shapeCast S65536x128 x shapeCasts_S8388608_S65536x128) shapeCasts_S65536x128_S8388608 = x :=
  shapeCast_shapeCast x _ _

/-! ## The result from the two output arrays -/

/-- The lines after the region flatten each output array and join the two as columns. -/
theorem joined (c : Dev nD) :
    Pipeline.afterTail₀ cfgs (dats m) 0 (V0 m) [hostOps1] c main_v29
      = paired (shapeCast S8388608 ((dats m 0 c).arrAt 8 cfg0.N) shapeCasts_S65536x128_S8388608)
          (shapeCast S8388608 ((dats m 0 c).arrAt 9 cfg0.N) shapeCasts_S65536x128_S8388608) := by
  have lower_kept : withArrays (cfgs 0).spec c (V0 m c) (fun w => (dats m 0 c).arrAt w (cfgs 0).N) (Proc.devRef .tc main_v24_0)
      = (dats m 0 c).arrAt 8 cfg0.N := Pipeline.withArrays_arr spec0 launch0.win.arr_inj c _ _ 8
  have upper_kept : withArrays (cfgs 0).spec c (V0 m c) (fun w => (dats m 0 c).arrAt w (cfgs 0).N) (Proc.devRef .tc main_v24_1)
      = (dats m 0 c).arrAt 9 cfg0.N := Pipeline.withArrays_arr spec0 launch0.win.arr_inj c _ _ 9
  unfold Pipeline.afterTail₀
  show StableHlo.after hostOps1 _ (Proc.devRef .tc main_v29) = _
  after_results
  rw [lower_kept, upper_kept]
  rfl

/-- THE KERNEL'S RESULT is the array of bounds of the four arguments. -/
theorem result_value (c : Dev nD) :
    Pipeline.afterTail₀ cfgs (dats m) 0 (V0 m) [hostOps1] c main_v29
      = bounds (m ((c : Thread nD τ).loc main_arg0)) (m ((c : Thread nD τ).loc main_arg1)) (m ((c : Thread nD τ).loc main_arg2)) (m ((c : Thread nD τ).loc main_arg3)) := by
  rw [joined, lower_array, upper_array, ends_first, ends_second, slopes_first, slopes_second, offsets_first,
    offsets_second, prior_first, prior_second, shapeCast_lowerOver, shapeCast_upperOver]
  simp only [laid_out_and_back]
  rfl

/-! ## The run -/

/-- Every weakly fair execution of the kernel's program terminates with the result at the array of bounds of the
    argument arrays and the arguments unchanged. -/
theorem run : θ_run defs (onTc (τ := τ) (main (F := Ideal))) ⟨m, fun _ => 0, ρ⟩ fun r => ∀ c : Dev nD,
      r.2.mem ((c.tc : Thread nD τ).loc main_v29)
        = bounds (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v29 (Pipeline.mem_restRefs_of main_v29 (by decide) (by decide))).trans (result_value m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Whole

end
-- ==== Proof.RefSide.lean ====
/-
  The reference, read neuron by neuron. It slices each argument's two columns into vectors over the neurons and
  computes with pointwise operations only; its result joins the two bound vectors as the columns of one array. Each
  intermediate vector, read at a neuron i, is the specification's matching quantity of that neuron's eight numbers:
  the activation arrives with the logistic function written out as 1 / (1 + e^{−(−x)}) and the straddling bit as a
  complement, and the specification's two spellings of each are one function.
-/
import proofs.«128677_j62002147885333_1_alg».proof.Proof.Gen.ReferenceIdeal.Read
import proofs.«128677_j62002147885333_1_alg».proof.Proof.BoundSpec

noncomputable section

namespace Cert.ReferenceIdeal.Neuron

open Idealize.ShloMosaic Cert.ReferenceIdeal Cert.ReferenceIdeal.Read Cert.BoundSpec

/-- An argument array: two numbers per neuron. -/
abbrev Arg := (⟨S8388608x2, .f32⟩ : BufTy).Contents (Elt Ideal)

variable (x0 x1 x2 x3 : Arg) (i : S8388608.Idx)

/-! ## The interval's own quantities -/

/-- a(l), the logistic function written out. -/
theorem act_l : val_main_v18 (F := Ideal) x0 i = act (val_main_v1 (F := Ideal) x0 i) := by
  simp only [val_main_v18_apply, val_main_v5_apply, val_main_v4_apply, val_main_cst_apply, val_main_v8_apply,
    val_main_v6_apply, val_main_v7_apply, val_main_cst_0_apply, val_main_v17_apply, val_main_v15_apply,
    val_main_v14_apply, val_main_cst_2_apply, val_main_v13_apply, val_main_v12_apply, val_main_cst_1_apply,
    val_main_v11_apply, val_main_v10_apply, val_main_v9_apply, val_main_v16_apply, val_main_cst_3_apply]
  exact actSpelled_eq _

/-- a(u), the same way. -/
theorem act_u : val_main_v33 (F := Ideal) x0 i = act (val_main_v3 (F := Ideal) x0 i) := by
  simp only [val_main_v33_apply, val_main_v20_apply, val_main_v19_apply, val_main_cst_4_apply, val_main_v23_apply,
    val_main_v21_apply, val_main_v22_apply, val_main_cst_5_apply, val_main_v32_apply, val_main_v30_apply,
    val_main_v29_apply, val_main_cst_7_apply, val_main_v28_apply, val_main_v27_apply, val_main_cst_6_apply,
    val_main_v26_apply, val_main_v25_apply, val_main_v24_apply, val_main_v31_apply, val_main_cst_8_apply]
  exact actSpelled_eq _

/-- The two sign tests. -/
theorem nonpos_u : val_main_v35 (F := Ideal) x0 i = nonpos (val_main_v3 (F := Ideal) x0 i) := by
  simp only [val_main_v35_apply, val_main_v34_apply, val_main_cst_9_apply]; rfl
theorem nonneg_l : val_main_v37 (F := Ideal) x0 i = nonneg (val_main_v1 (F := Ideal) x0 i) := by
  simp only [val_main_v37_apply, val_main_v36_apply, val_main_cst_10_apply]; rfl

/-- The straddling bit, taken as a complement. -/
theorem straddles_lu :
    val_main_v39 (F := Ideal) x0 i = straddles (val_main_v1 (F := Ideal) x0 i) (val_main_v3 (F := Ideal) x0 i) := by
  rw [val_main_v39_apply, val_main_v38_apply, nonpos_u, nonneg_l]
  exact straddlesCompl_eq _ _

/-- The chord slope and its two halves. -/
theorem slope_lu :
    val_main_v42 (F := Ideal) x0 i = slope (val_main_v1 (F := Ideal) x0 i) (val_main_v3 (F := Ideal) x0 i) := by
  rw [val_main_v42_apply, val_main_v40_apply, val_main_v41_apply, act_u, act_l]; rfl
theorem slopeLo_lu :
    val_main_v43 (F := Ideal) x0 i = slopeLo (val_main_v1 (F := Ideal) x0 i) (val_main_v3 (F := Ideal) x0 i) := by
  rw [val_main_v43_apply, val_main_call2_v1_apply, val_main_call2_v0_apply, val_main_cst_11_apply, nonpos_u, slope_lu]; rfl
theorem slopeHi_lu :
    val_main_v45 (F := Ideal) x0 i = slopeHi (val_main_v1 (F := Ideal) x0 i) (val_main_v3 (F := Ideal) x0 i) := by
  rw [val_main_v45_apply, val_main_v44_apply, val_main_call3_v1_apply, val_main_call3_v0_apply, val_main_cst_12_apply,
    nonneg_l, straddles_lu, slope_lu]; rfl

/-- The first bounds. -/
theorem firstHi_lu :
    val_main_v49 (F := Ideal) x0 i
      = firstHi (act (val_main_v1 (F := Ideal) x0 i)) (act (val_main_v3 (F := Ideal) x0 i))
          (slope (val_main_v1 (F := Ideal) x0 i) (val_main_v3 (F := Ideal) x0 i)) zero := by
  rw [val_main_v49_apply, val_main_v47_apply, val_main_v46_apply, val_main_cst_13_apply, act_l, act_u, slope_lu]; rfl
theorem firstLo_lu :
    val_main_v50 (F := Ideal) x0 i
      = firstLo (act (val_main_v1 (F := Ideal) x0 i)) (act (val_main_v3 (F := Ideal) x0 i))
          (straddles (val_main_v1 (F := Ideal) x0 i) (val_main_v3 (F := Ideal) x0 i))
          (slope (val_main_v1 (F := Ideal) x0 i) (val_main_v3 (F := Ideal) x0 i)) zero := by
  rw [val_main_v50_apply, val_main_call6_v1_apply, val_main_call6_v0_apply, val_main_cst_14_apply, val_main_v48_apply,
    val_main_v47_apply, val_main_v46_apply, val_main_cst_13_apply, straddles_lu, act_l, act_u, slope_lu]; rfl

/-! ## One step back through the previous layer -/

theorem upperSlope_at :
    val_main_v75 (F := Ideal) x0 x1 i
      = upperSlope (slopeHi (val_main_v1 (F := Ideal) x0 i) (val_main_v3 (F := Ideal) x0 i))
          (val_main_v58 (F := Ideal) x1 i) (val_main_v60 (F := Ideal) x1 i) := by
  rw [val_main_v75_apply, val_main_v73_apply, val_main_v74_apply, val_main_v66_apply, val_main_v68_apply,
    val_main_v65_apply, val_main_cst_16_apply, val_main_v67_apply, val_main_cst_17_apply, slopeHi_lu]; rfl

theorem upperOffset_at :
    val_main_v79 (F := Ideal) x0 x2 i
      = upperOffset (val_main_v3 (F := Ideal) x0 i) (act (val_main_v1 (F := Ideal) x0 i))
          (act (val_main_v3 (F := Ideal) x0 i)) (nonpos (val_main_v3 (F := Ideal) x0 i))
          (slopeHi (val_main_v1 (F := Ideal) x0 i) (val_main_v3 (F := Ideal) x0 i))
          (val_main_v62 (F := Ideal) x2 i) (val_main_v64 (F := Ideal) x2 i) := by
  rw [val_main_v79_apply, val_main_v77_apply, val_main_v76_apply, val_main_v78_apply, val_main_v66_apply,
    val_main_v68_apply, val_main_v65_apply, val_main_cst_16_apply, val_main_v67_apply, val_main_cst_17_apply,
    val_main_v56_apply, val_main_v52_apply, val_main_v51_apply, nonpos_u, act_l, act_u, slopeHi_lu]; rfl

theorem lowerSlope_at :
    val_main_v82 (F := Ideal) x0 x1 i
      = lowerSlope (slopeLo (val_main_v1 (F := Ideal) x0 i) (val_main_v3 (F := Ideal) x0 i))
          (val_main_v58 (F := Ideal) x1 i) (val_main_v60 (F := Ideal) x1 i) := by
  rw [val_main_v82_apply, val_main_v80_apply, val_main_v81_apply, val_main_v70_apply, val_main_v72_apply,
    val_main_v69_apply, val_main_cst_18_apply, val_main_v71_apply, val_main_cst_19_apply, slopeLo_lu]; rfl

theorem lowerOffset_at :
    val_main_v86 (F := Ideal) x0 x2 i
      = lowerOffset (val_main_v1 (F := Ideal) x0 i) (act (val_main_v1 (F := Ideal) x0 i))
          (straddles (val_main_v1 (F := Ideal) x0 i) (val_main_v3 (F := Ideal) x0 i))
          (slopeLo (val_main_v1 (F := Ideal) x0 i) (val_main_v3 (F := Ideal) x0 i))
          (val_main_v62 (F := Ideal) x2 i) (val_main_v64 (F := Ideal) x2 i) := by
  rw [val_main_v86_apply, val_main_v84_apply, val_main_v83_apply, val_main_v85_apply, val_main_v70_apply,
    val_main_v72_apply, val_main_v69_apply, val_main_cst_18_apply, val_main_v71_apply, val_main_cst_19_apply,
    val_main_v55_apply, val_main_call7_v1_apply, val_main_call7_v0_apply, val_main_cst_15_apply, val_main_v54_apply,
    val_main_v53_apply, straddles_lu, act_l, slopeLo_lu]; rfl

/-! ## The two bound vectors -/

/-- The lower-bound vector at neuron i is the specification's lower bound of that neuron's eight numbers. -/
theorem lower_at :
    val_main_v108 (F := Ideal) x0 x1 x2 x3 i
      = lower (val_main_v1 (F := Ideal) x0 i) (val_main_v3 (F := Ideal) x0 i) (val_main_v58 (F := Ideal) x1 i)
          (val_main_v60 (F := Ideal) x1 i) (val_main_v62 (F := Ideal) x2 i) (val_main_v64 (F := Ideal) x2 i)
          (val_main_v88 (F := Ideal) x3 i) (val_main_v90 (F := Ideal) x3 i) := by
  rw [val_main_v108_apply, val_main_v107_apply, val_main_v98_apply, val_main_v97_apply, val_main_v93_apply,
    val_main_v96_apply, val_main_v92_apply, val_main_v95_apply, val_main_v91_apply, val_main_cst_20_apply,
    val_main_v94_apply, val_main_cst_21_apply, lowerSlope_at, lowerOffset_at, firstLo_lu]; rfl

/-- The upper-bound vector at neuron i is the specification's upper bound. -/
theorem upper_at :
    val_main_v110 (F := Ideal) x0 x1 x2 x3 i
      = upper (val_main_v1 (F := Ideal) x0 i) (val_main_v3 (F := Ideal) x0 i) (val_main_v58 (F := Ideal) x1 i)
          (val_main_v60 (F := Ideal) x1 i) (val_main_v62 (F := Ideal) x2 i) (val_main_v64 (F := Ideal) x2 i)
          (val_main_v88 (F := Ideal) x3 i) (val_main_v90 (F := Ideal) x3 i) := by
  rw [val_main_v110_apply, val_main_v109_apply, val_main_v106_apply, val_main_v105_apply, val_main_v101_apply,
    val_main_v104_apply, val_main_v100_apply, val_main_v103_apply, val_main_v99_apply, val_main_cst_22_apply,
    val_main_v102_apply, val_main_cst_23_apply, upperSlope_at, upperOffset_at, firstHi_lu]; rfl

/-! ## The result array -/

/-- THE REFERENCE'S RESULT is the array of bounds of the four arguments: its two bound vectors are the specification's
    neuron by neuron, the columns it reads are each argument's first and second numbers, and it joins the two
    vectors as columns the same way. -/
theorem result_value : val_main_v113 (F := Ideal) x0 x1 x2 x3 = bounds x0 x1 x2 x3 := by
  have lower_vector : val_main_v108 (F := Ideal) x0 x1 x2 x3
      = lowerOver (firstOf x0) (secondOf x0) (firstOf x1) (secondOf x1) (firstOf x2) (secondOf x2) (firstOf x3)
          (secondOf x3) := funext fun i => lower_at x0 x1 x2 x3 i
  have upper_vector : val_main_v110 (F := Ideal) x0 x1 x2 x3
      = upperOver (firstOf x0) (secondOf x0) (firstOf x1) (secondOf x1) (firstOf x2) (secondOf x2) (firstOf x3)
          (secondOf x3) := funext fun i => upper_at x0 x1 x2 x3 i
  show paired (val_main_v108 (F := Ideal) x0 x1 x2 x3) (val_main_v110 (F := Ideal) x0 x1 x2 x3) = _
  rw [lower_vector, upper_vector]
  rfl

end Cert.ReferenceIdeal.Neuron

end
-- ==== Proof.lean ====
/-
  The kernel and the reference compute, for each of 8388608 neurons, the same two numbers from the same eight: the
  lower and upper bound of an activation over an input interval, tightened by one step of back-substitution through
  the previous layer (Proof/BoundSpec.lean states them). Both programs do it with pointwise operations, so the claim
  is a statement about one neuron plus bookkeeping about where a neuron's numbers sit.

  One neuron. The two programs differ in two spellings only. The kernel's activation uses the logistic function
  σ(0 − x); the reference writes 1 / (1 + e^{−(−x)}); σ(y) is 1 / (1 + e^{−y}) and 0 − x = −x on every extended real,
  infinite ones included. The kernel flips the "straddles zero" bit by exclusive-or with 1, the reference by
  complement; on one bit these agree. No law used needs a finite input: the precondition is never opened.

  Where the numbers sit. The reference works on vectors over the neurons (each argument's two columns). The kernel
  lays each column out as 65536 × 128, walks it in 64 tiles of 1024 rows, and flattens its two output arrays back;
  laying out and flattening only relabel the neurons, every window of a grid point sits on the same tile, and the
  tiles cover the arrays. Both then join the two bound vectors as the columns of the result.

  The three frames are the generated ones (the reference's is its generated run with the result dropped); the
  idealization rewrote nothing, so there is nothing to preserve.
-/
import proofs.«128677_j62002147885333_1_alg».proof.Defs
import proofs.«128677_j62002147885333_1_alg».proof.Proof.Gen.Kernel
import proofs.«128677_j62002147885333_1_alg».proof.Proof.Gen.Kernel.Skeleton
import proofs.«128677_j62002147885333_1_alg».proof.Proof.Gen.Kernel.Launch
import proofs.«128677_j62002147885333_1_alg».proof.Proof.Gen.Kernel.Points
import proofs.«128677_j62002147885333_1_alg».proof.Proof.Gen.Kernel.Frame
import proofs.«128677_j62002147885333_1_alg».proof.Proof.Gen.KernelIdeal
import proofs.«128677_j62002147885333_1_alg».proof.Proof.Gen.KernelIdeal.Skeleton
import proofs.«128677_j62002147885333_1_alg».proof.Proof.Gen.KernelIdeal.Launch
import proofs.«128677_j62002147885333_1_alg».proof.Proof.Gen.KernelIdeal.Points
import proofs.«128677_j62002147885333_1_alg».proof.Proof.Gen.KernelIdeal.Frame
import proofs.«128677_j62002147885333_1_alg».proof.Proof.Gen.ReferenceIdeal
import proofs.«128677_j62002147885333_1_alg».proof.Proof.Gen.ReferenceIdeal.Run
import proofs.«128677_j62002147885333_1_alg».proof.Proof.Gen.ReferenceIdeal.Read
import proofs.«128677_j62002147885333_1_alg».proof.Proof.Gen.Pre_finite_inputs
import proofs.«128677_j62002147885333_1_alg».proof.Proof.KernelWhole
import proofs.«128677_j62002147885333_1_alg».proof.Proof.RefSide
import Idealize.ShloMosaic.Adequacy
import Idealize.ShloMosaic.Init

noncomputable section

namespace Cert.Proof

open Idealize.ShloMosaic Idealize.ShloMosaic.TcCoe Idealize.SL.Sem Cert.BoundSpec

/-- The kernel as printed runs and leaves its arguments as they were. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- So does the reference: its run, the statement about the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization changed no operation. -/
theorem preserves : Cert.preserves_Kernel_KernelIdeal := trivial

/-- From memories agreeing on the four arguments both programs end with the result at the array of bounds of those
    arguments: the kernel by its tiles, the reference neuron by neuron. -/
theorem algebraic : Cert.algebraic_KernelIdeal_ReferenceIdeal := by
  intro m ρ m' ρ' _ hagree
  refine ⟨fun c => bounds (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v113_eq, Cert.ReferenceIdeal.Neuron.result_value, (hagree c).1, (hagree c).2.1,
    (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
